-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v0_2)) (v4 : (c : Dev Cert.KernelIdeal.nD) → Buf (Elt Ideal) ((c.tc : Thread Cert.KernelIdeal.nD Cert.KernelIdeal.τ).loc Cert.KernelIdeal.main_v0_3)) (v5 : (c : Dev Cert.KernelIdeal.nD) → Buf (Elt Ideal) ((c.tc : Thread Cert.KernelIdeal.nD Cert.KernelIdeal.τ).loc Cert.KernelIdeal.main_v0_4)) (v6 : (c : Dev Cert.KernelIdeal.nD) → Buf (Elt Ideal) ((c.tc : Thread Cert.KernelIdeal.nD Cert.KernelIdeal.τ).loc Cert.KernelIdeal.main_v0_5)) (v7 : (c : Dev Cert.KernelIdeal.nD) → Buf (Elt Ideal) ((c.tc : Thread Cert.KernelIdeal.nD Cert.KernelIdeal.τ).loc Cert.KernelIdeal.main_v4_0)) (v8 : (c : Dev Cert.KernelIdeal.nD) → Buf (Elt Ideal) ((c.tc : Thread Cert.KernelIdeal.nD Cert.KernelIdeal.τ).loc Cert.KernelIdeal.main_v4_1)) (v9 : (c : Dev Cert.KernelIdeal.nD) → Buf (Elt Ideal) ((c.tc : Thread Cert.KernelIdeal.nD Cert.KernelIdeal.τ).loc Cert.KernelIdeal.main_v4_2)) (v10 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v0_2) = v3 c
          ∧ r.2.mem ((c.tc : Thread Cert.KernelIdeal.nD Cert.KernelIdeal.τ).loc Cert.KernelIdeal.main_v0_3) = v4 c
          ∧ r.2.mem ((c.tc : Thread Cert.KernelIdeal.nD Cert.KernelIdeal.τ).loc Cert.KernelIdeal.main_v0_4) = v5 c
          ∧ r.2.mem ((c.tc : Thread Cert.KernelIdeal.nD Cert.KernelIdeal.τ).loc Cert.KernelIdeal.main_v0_5) = v6 c
          ∧ r.2.mem ((c.tc : Thread Cert.KernelIdeal.nD Cert.KernelIdeal.τ).loc Cert.KernelIdeal.main_v4_0) = v7 c
          ∧ r.2.mem ((c.tc : Thread Cert.KernelIdeal.nD Cert.KernelIdeal.τ).loc Cert.KernelIdeal.main_v4_1) = v8 c
          ∧ r.2.mem ((c.tc : Thread Cert.KernelIdeal.nD Cert.KernelIdeal.τ).loc Cert.KernelIdeal.main_v4_2) = v9 c
          ∧ r.2.mem ((c.tc : Thread Cert.KernelIdeal.nD Cert.KernelIdeal.τ).loc Cert.KernelIdeal.main_v4_3) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v83) = v4 c
          ∧ r.2.mem ((c.tc : Thread Cert.ReferenceIdeal.nD Cert.ReferenceIdeal.τ).loc Cert.ReferenceIdeal.main_v98) = v5 c
          ∧ r.2.mem ((c.tc : Thread Cert.ReferenceIdeal.nD Cert.ReferenceIdeal.τ).loc Cert.ReferenceIdeal.main_v113) = v6 c
          ∧ r.2.mem ((c.tc : Thread Cert.ReferenceIdeal.nD Cert.ReferenceIdeal.τ).loc Cert.ReferenceIdeal.main_v126) = v7 c
          ∧ r.2.mem ((c.tc : Thread Cert.ReferenceIdeal.nD Cert.ReferenceIdeal.τ).loc Cert.ReferenceIdeal.main_v133) = v8 c
          ∧ r.2.mem ((c.tc : Thread Cert.ReferenceIdeal.nD Cert.ReferenceIdeal.τ).loc Cert.ReferenceIdeal.main_v140) = v9 c
          ∧ r.2.mem ((c.tc : Thread Cert.ReferenceIdeal.nD Cert.ReferenceIdeal.τ).loc Cert.ReferenceIdeal.main_v148) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256 : Shape := ⟨2, ![128, 256]⟩
abbrev S128x512 : Shape := ⟨2, ![128, 512]⟩
abbrev S128x256x512 : Shape := ⟨3, ![128, 256, 512]⟩
abbrev S256x512 : Shape := ⟨2, ![256, 512]⟩
abbrev S512 : Shape := ⟨1, ![512]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128x256x512 : S_.BroadcastsInDim S128x256x512 (![] : Fin 0 → Fin S128x256x512.rank)
  reducesTo_S128x256x512_S_d0_1_2 : S128x256x512.ReducesTo [0, 1, 2] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg11 : FVec F S256x512 .f32) (main_arg12 : FVec F S256x512 .f32) (main_arg13 : FVec F S512 .f32) (main_arg14 : FVec F S512 .f32) (main_v48 : IVec S_ 1) (main_v49 : FVec F S128x256x512 .f32) (main_v50 : FVec F S128x256x512 .f32) : IVec S_ 1 :=
  let main_v51 : IVec S128x256x512 1 := cmpf .olt main_v49 main_v50
  let main_c_19 : IVec S_ 1 := constantI S_ 1 1#1
  let main_v52 : IVec S_ 1 := (fun x v => Host.reduce IntOp.andi x v reducesTo_S128x256x512_S_d0_1_2 h_S_) main_v51 main_c_19
  let main_v53 : IVec S_ 1 := andi main_v48 main_v52
  let main_v54 : FVec F S256x512 .f32 := Host.absf main_arg11
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256x512 .f32 := Host.absf main_arg12
  let main_cst_22 : FVec F S_ .f32 := constant S_ .f32 0x7F800000#32
  let main_v60 : FVec F S256x512 .f32 := broadcastInDim S256x512 ![] bcast_S_S256x512 main_cst_22
  let main_v61 : IVec S256x512 1 := cmpf .olt main_v59 main_v60
  let main_c_23 : IVec S_ 1 := constantI S_ 1 1#1
  let main_v62 : IVec S_ 1 := (fun x v => Host.reduce IntOp.andi x v reducesTo_S256x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_v63 main_v67

def fn_part2 {F : FTy → Type} [FloatOps F] (main_arg7 : FVec F S128x256x512 .f32) (main_arg8 : FVec F S128x256x512 .f32) (main_arg9 : FVec F S128x256x512 .f32) (main_arg10 : FVec F S128x256x512 .f32) (main_arg11 : FVec F S256x512 .f32) (main_arg12 : FVec F S256x512 .f32) (main_arg13 : FVec F S512 .f32) (main_arg14 : FVec F S512 .f32) (main_v33 : IVec S_ 1) : IVec S_ 1 :=
  let main_v34 : FVec F S128x256x512 .f32 := Host.absf main_arg7
  let main_cst_12 : FVec F S_ .f32 := constant S_ .f32 0x7F800000#32
  let main_v35 : FVec F S128x256x512 .f32 := broadcastInDim S128x256x512 ![] bcast_S_S128x256x512 main_cst_12
  let main_v36 : IVec S128x256x512 1 := cmpf .olt main_v34 main_v35
  let main_c_13 : IVec S_ 1 := constantI S_ 1 1#1
  let main_v37 : IVec S_ 1 := (fun x v => Host.reduce IntOp.andi x v reducesTo_S128x256x512_S_d0_1_2 h_S_) main_v36 main_c_13
  let main_v38 : IVec S_ 1 := andi main_v33 main_v37
  let main_v39 : FVec F S128x256x512 .f32 := Host.absf main_arg8
  let main_cst_14 : FVec F S_ .f32 := constant S_ .f32 0x7F800000#32
  let main_v40 : FVec F S128x256x512 .f32 := broadcastInDim S128x256x512 ![] bcast_S_S128x256x512 main_cst_14
  let main_v41 : IVec S128x256x512 1 := cmpf .olt main_v39 main_v40
  let main_c_15 : IVec S_ 1 := constantI S_ 1 1#1
  let main_v42 : IVec S_ 1 := (fun x v => Host.reduce IntOp.andi x v reducesTo_S128x256x512_S_d0_1_2 h_S_) main_v41 main_c_15
  let main_v43 : IVec S_ 1 := andi main_v38 main_v42
  let main_v44 : FVec F S128x256x512 .f32 := Host.absf main_arg9
  let main_cst_16 : FVec F S_ .f32 := constant S_ .f32 0x7F800000#32
  let main_v45 : FVec F S128x256x512 .f32 := broadcastInDim S128x256x512 ![] bcast_S_S128x256x512 main_cst_16
  let main_v46 : IVec S128x256x512 1 := cmpf .olt main_v44 main_v45
  let main_c_17 : IVec S_ 1 := constantI S_ 1 1#1
  let main_v47 : IVec S_ 1 := (fun x v => Host.reduce IntOp.andi x v reducesTo_S128x256x512_S_d0_1_2 h_S_) main_v46 main_c_17
  let main_v48 : IVec S_ 1 := andi main_v43 main_v47
  let main_v49 : FVec F S128x256x512 .f32 := Host.absf main_arg10
  let main_cst_18 : FVec F S_ .f32 := constant S_ .f32 0x7F800000#32
  let main_v50 : FVec F S128x256x512 .f32 := broadcastInDim S128x256x512 ![] bcast_S_S128x256x512 main_cst_18
  fn_part3 (F := F) main_arg11 main_arg12 main_arg13 main_arg14 main_v48 main_v49 main_v50

def fn_part1 {F : FTy → Type} [FloatOps F] (main_arg4 : FVec F S128x512 .f32) (main_arg5 : FVec F S128x512 .f32) (main_arg6 : FVec F S128x512 .f32) (main_arg7 : FVec F S128x256x512 .f32) (main_arg8 : FVec F S128x256x512 .f32) (main_arg9 : FVec F S128x256x512 .f32) (main_arg10 : FVec F S128x256x512 .f32) (main_arg11 : FVec F S256x512 .f32) (main_arg12 : FVec F S256x512 .f32) (main_arg13 : FVec F S512 .f32) (main_arg14 : FVec F S512 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S128x512 .f32 := Host.absf main_arg5
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S128x512 .f32 := Host.absf main_arg6
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S128x256 .f32) (main_arg1 : FVec F S128x512 .f32) (main_arg2 : FVec F S128x512 .f32) (main_arg3 : FVec F S128x512 .f32) (main_arg4 : FVec F S128x512 .f32) (main_arg5 : FVec F S128x512 .f32) (main_arg6 : FVec F S128x512 .f32) (main_arg7 : FVec F S128x256x512 .f32) (main_arg8 : FVec F S128x256x512 .f32) (main_arg9 : FVec F S128x256x512 .f32) (main_arg10 : FVec F S128x256x512 .f32) (main_arg11 : FVec F S256x512 .f32) (main_arg12 : FVec F S256x512 .f32) (main_arg13 : FVec F S512 .f32) (main_arg14 : FVec F S512 .f32) : IVec S_ 1 :=
  let main_v0 : FVec F S128x256 .f32 := Host.absf main_arg0
  let main_cst : FVec F S_ .f32 := constant S_ .f32 0x7F800000#32
  let main_v1 : FVec F S128x256 .f32 := broadcastInDim S128x256 ![] bcast_S_S128x256 main_cst
  let main_v2 : IVec S128x256 1 := cmpf .olt main_v0 main_v1
  let main_c : IVec S_ 1 := constantI S_ 1 1#1
  let main_v3 : IVec S_ 1 := (fun x v => Host.reduce IntOp.andi x v reducesTo_S128x256_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S128x256 : Shape := ⟨2, ![128, 256]⟩
abbrev S128x512 : Shape := ⟨2, ![128, 512]⟩
abbrev S128x256x512 : Shape := ⟨3, ![128, 256, 512]⟩
abbrev S256x512 : Shape := ⟨2, ![256, 512]⟩
abbrev S512 : Shape := ⟨1, ![512]⟩
abbrev S128x128 : Shape := ⟨2, ![128, 128]⟩
abbrev S256x128 : Shape := ⟨2, ![256, 128]⟩
abbrev S128 : Shape := ⟨1, ![128]⟩
abbrev S1x128 : Shape := ⟨2, ![1, 128]⟩
abbrev S128x1024 : Shape := ⟨2, ![128, 1024]⟩
abbrev S_ : Shape := ⟨0, ![]⟩
abbrev S128x256x1 : Shape := ⟨3, ![128, 256, 1]⟩
abbrev S2x256x512 : Shape := ⟨3, ![2, 256, 512]⟩
abbrev S2x256x1 : Shape := ⟨3, ![2, 256, 1]⟩
abbrev S1x1x512 : Shape := ⟨3, ![1, 1, 512]⟩

abbrev nBuf : Space → Nat
  | .hbm => 33
  | .vmem => 60
  | .smem => 0
  | _ => 0

abbrev bufTy : (tb : Table) → Fin (tcTables nBuf tb) → BufTy
  | .hbm, ⟨0, _⟩ => ⟨S128x256, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x256x512, .f32⟩
  | .hbm, ⟨8, _⟩ => ⟨S128x256x512, .f32⟩
  | .hbm, ⟨9, _⟩ => ⟨S128x256x512, .f32⟩
  | .hbm, ⟨10, _⟩ => ⟨S128x256x512, .f32⟩
  | .hbm, ⟨11, _⟩ => ⟨S256x512, .f32⟩
  | .hbm, ⟨12, _⟩ => ⟨S256x512, .f32⟩
  | .hbm, ⟨13, _⟩ => ⟨S512, .f32⟩
  | .hbm, ⟨14, _⟩ => ⟨S512, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x256x1, .f32⟩
  | .hbm, ⟨29, _⟩ => ⟨S128x256x512, .f32⟩
  | .hbm, ⟨30, _⟩ => ⟨S128x256x512, .f32⟩
  | .hbm, ⟨31, _⟩ => ⟨S128x256x512, .f32⟩
  | .hbm, ⟨32, _⟩ => ⟨S128x256x512, .f32⟩
  | .local _ .vmem, ⟨0, _⟩ => ⟨S128x256, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128, .f32⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S128, .f32⟩
  | .local _ .vmem, ⟨39, _⟩ => ⟨S2x256x512, .f32⟩
  | .local _ .vmem, ⟨40, _⟩ => ⟨S2x256x512, .f32⟩
  | .local _ .vmem, ⟨41, _⟩ => ⟨S2x256x512, .f32⟩
  | .local _ .vmem, ⟨42, _⟩ => ⟨S2x256x512, .f32⟩
  | .local _ .vmem, ⟨43, _⟩ => ⟨S2x256x512, .f32⟩
  | .local _ .vmem, ⟨44, _⟩ => ⟨S2x256x512, .f32⟩
  | .local _ .vmem, ⟨45, _⟩ => ⟨S2x256x512, .f32⟩
  | .local _ .vmem, ⟨46, _⟩ => ⟨S2x256x512, .f32⟩
  | .local _ .vmem, ⟨47, _⟩ => ⟨S2x256x1, .f32⟩
  | .local _ .vmem, ⟨48, _⟩ => ⟨S2x256x1, .f32⟩
  | .local _ .vmem, ⟨49, _⟩ => ⟨S512, .f32⟩
  | .local _ .vmem, ⟨50, _⟩ => ⟨S512, .f32⟩
  | .local _ .vmem, ⟨51, _⟩ => ⟨S512, .f32⟩
  | .local _ .vmem, ⟨52, _⟩ => ⟨S2x256x512, .f32⟩
  | .local _ .vmem, ⟨53, _⟩ => ⟨S2x256x512, .f32⟩
  | .local _ .vmem, ⟨54, _⟩ => ⟨S2x256x512, .f32⟩
  | .local _ .vmem, ⟨55, _⟩ => ⟨S2x256x512, .f32⟩
  | .local _ .vmem, ⟨56, _⟩ => ⟨S2x256x512, .f32⟩
  | .local _ .vmem, ⟨57, _⟩ => ⟨S2x256x512, .f32⟩
  | .local _ .vmem, ⟨58, _⟩ => ⟨S2x256x512, .f32⟩
  | .local _ .vmem, ⟨59, _⟩ => ⟨S2x256x512, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v1 : Ref sig .tc := ⟨.hbm, 24, rfl⟩
abbrev main_call0_cst : Ref sig .tc := ⟨.hbm, 25, rfl⟩
abbrev main_call0_v0 : Ref sig .tc := ⟨.hbm, 26, rfl⟩
abbrev main_v2 : Ref sig .tc := ⟨.hbm, 27, rfl⟩
abbrev main_v3 : Ref sig .tc := ⟨.hbm, 28, rfl⟩
abbrev main_v4_0 : Ref sig .tc := ⟨.hbm, 29, rfl⟩
abbrev main_v4_1 : Ref sig .tc := ⟨.hbm, 30, rfl⟩
abbrev main_v4_2 : Ref sig .tc := ⟨.hbm, 31, rfl⟩
abbrev main_v4_3 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc1_stg0_0 : Ref sig .tc := ⟨.vmem, 39, rfl⟩
abbrev cc1_stg0_1 : Ref sig .tc := ⟨.vmem, 40, rfl⟩
abbrev cc1_stg1_0 : Ref sig .tc := ⟨.vmem, 41, rfl⟩
abbrev cc1_stg1_1 : Ref sig .tc := ⟨.vmem, 42, rfl⟩
abbrev cc1_stg2_0 : Ref sig .tc := ⟨.vmem, 43, rfl⟩
abbrev cc1_stg2_1 : Ref sig .tc := ⟨.vmem, 44, rfl⟩
abbrev cc1_stg3_0 : Ref sig .tc := ⟨.vmem, 45, rfl⟩
abbrev cc1_stg3_1 : Ref sig .tc := ⟨.vmem, 46, rfl⟩
abbrev cc1_stg4_0 : Ref sig .tc := ⟨.vmem, 47, rfl⟩
abbrev cc1_stg4_1 : Ref sig .tc := ⟨.vmem, 48, rfl⟩
abbrev cc1_stg5_0 : Ref sig .tc := ⟨.vmem, 49, rfl⟩
abbrev cc1_stg6_0 : Ref sig .tc := ⟨.vmem, 50, rfl⟩
abbrev cc1_stg7_0 : Ref sig .tc := ⟨.vmem, 51, rfl⟩
abbrev cc1_stg8_0 : Ref sig .tc := ⟨.vmem, 52, rfl⟩
abbrev cc1_stg8_1 : Ref sig .tc := ⟨.vmem, 53, rfl⟩
abbrev cc1_stg9_0 : Ref sig .tc := ⟨.vmem, 54, rfl⟩
abbrev cc1_stg9_1 : Ref sig .tc := ⟨.vmem, 55, rfl⟩
abbrev cc1_stg10_0 : Ref sig .tc := ⟨.vmem, 56, rfl⟩
abbrev cc1_stg10_1 : Ref sig .tc := ⟨.vmem, 57, rfl⟩
abbrev cc1_stg11_0 : Ref sig .tc := ⟨.vmem, 58, rfl⟩
abbrev cc1_stg11_1 : Ref sig .tc := ⟨.vmem, 59, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc1_sem0_0 : DmaSem sig := 39
abbrev cc1_sem0_1 : DmaSem sig := 40
abbrev cc1_sem1_0 : DmaSem sig := 41
abbrev cc1_sem1_1 : DmaSem sig := 42
abbrev cc1_sem2_0 : DmaSem sig := 43
abbrev cc1_sem2_1 : DmaSem sig := 44
abbrev cc1_sem3_0 : DmaSem sig := 45
abbrev cc1_sem3_1 : DmaSem sig := 46
abbrev cc1_sem4_0 : DmaSem sig := 47
abbrev cc1_sem4_1 : DmaSem sig := 48
abbrev cc1_sem5_0 : DmaSem sig := 49
abbrev cc1_sem6_0 : DmaSem sig := 50
abbrev cc1_sem7_0 : DmaSem sig := 51
abbrev cc1_sem8_0 : DmaSem sig := 52
abbrev cc1_sem8_1 : DmaSem sig := 53
abbrev cc1_sem9_0 : DmaSem sig := 54
abbrev cc1_sem9_1 : DmaSem sig := 55
abbrev cc1_sem10_0 : DmaSem sig := 56
abbrev cc1_sem10_1 : DmaSem sig := 57
abbrev cc1_sem11_0 : DmaSem sig := 58
abbrev cc1_sem11_1 : DmaSem sig := 59

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 1 → Nat :=
  let arg0 : BitVec 32 := BitVec.ofNat 32 (i 0).val
  let c0_i32 : BitVec 32 := 0#32
  ![arg0.toNat]

def cc0_transform_10 (i : grid0.Coords) : Fin 1 → Nat :=
  let arg0 : BitVec 32 := BitVec.ofNat 32 (i 0).val
  let c0_i32 : BitVec 32 := 0#32
  ![arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 1 → Nat :=
  let arg0 : BitVec 32 := BitVec.ofNat 32 (i 0).val
  let c0_i32 : BitVec 32 := 0#32
  ![arg0.toNat]

def cc0_transform_18 (i : grid0.Coords) : Fin 1 → Nat :=
  let arg0 : BitVec 32 := BitVec.ofNat 32 (i 0).val
  let c0_i32 : BitVec 32 := 0#32
  ![arg0.toNat]

def cc0_transform_19 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2x256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2x256x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2x256x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2x256x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  inb_S128_S128_0 : ∀ a, (![0] : Fin 1 → Nat) a + S128.size a ≤ S128.size a
  h_S128 : 0 < S128.numel
  shapeCasts_S128_S1x128 : S128.ShapeCasts S1x128
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  broadcasts_S1x128_S128x128 : S1x128.Broadcasts S128x128
  shapeCasts_S1x128_S128 : S1x128.ShapeCasts S128
  concatenates_S128x512_S128x512_S128x1024_d1 : Shape.Concatenates [S128x512, S128x512] S128x1024 1
  bcast_S_S128x1024 : S_.BroadcastsInDim S128x1024 (![] : Fin 0 → Fin S128x1024.rank)
  bcast_S128x256_S128x256x1_0_1 : S128x256.BroadcastsInDim S128x256x1 (![0, 1] : Fin 2 → Fin S128x256x1.rank)
  inb_S512_S512_0 : ∀ a, (![0] : Fin 1 → Nat) a + S512.size a ≤ S512.size a
  h_S512 : 0 < S512.numel
  shapeCasts_S512_S512 : S512.ShapeCasts S512
  shapeCasts_S512_S1x1x512 : S512.ShapeCasts S1x1x512
  inb_S2x256x1_S2x256x1_0_0_0 : ∀ a, (![0, 0, 0] : Fin 3 → Nat) a + S2x256x1.size a ≤ S2x256x1.size a
  h_S2x256x1 : 0 < S2x256x1.numel
  shapeCasts_S2x256x1_S2x256x1 : S2x256x1.ShapeCasts S2x256x1
  broadcasts_S1x1x512_S2x256x512 : S1x1x512.Broadcasts S2x256x512
  broadcasts_S2x256x1_S2x256x512 : S2x256x1.Broadcasts S2x256x512
  inb_S2x256x512_S2x256x512_0_0_0 : ∀ a, (![0, 0, 0] : Fin 3 → Nat) a + S2x256x512.size a ≤ S2x256x512.size a
  h_S2x256x512 : 0 < S2x256x512.numel
  dot_S128x256_S256x128_S128x128_1_0_0_1_n_n_wf : DotDims.WF S128x256 S256x128 S128x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S128x256.size a
  hwx0_0 : ∀ i : grid0.Coords, EltTy.bits .f32 = 32 ∨ (Rect.block (s := S128x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x512.size a
  hwx0_1 : ∀ i : grid0.Coords, EltTy.bits .f32 = 32 ∨ (Rect.block (s := S128x512) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x512.size a
  hwx0_2 : ∀ i : grid0.Coords, EltTy.bits .f32 = 32 ∨ (Rect.block (s := S128x512) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x512.size a
  hwx0_3 : ∀ i : grid0.Coords, EltTy.bits .f32 = 32 ∨ (Rect.block (s := S128x512) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x512.size a
  hwx0_4 : ∀ i : grid0.Coords, EltTy.bits .f32 = 32 ∨ (Rect.block (s := S128x512) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x512.size a
  hwx0_5 : ∀ i : grid0.Coords, EltTy.bits .f32 = 32 ∨ (Rect.block (s := S128x512) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x512.size a
  hwx0_6 : ∀ i : grid0.Coords, EltTy.bits .f32 = 32 ∨ (Rect.block (s := S128x512) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x512.size a
  hwx0_7 : ∀ i : grid0.Coords, EltTy.bits .f32 = 32 ∨ (Rect.block (s := S256x512) S256x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x512.size a
  hwx0_8 : ∀ i : grid0.Coords, EltTy.bits .f32 = 32 ∨ (Rect.block (s := S256x512) S256x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S512.size a
  hwx0_9 : ∀ i : grid0.Coords, EltTy.bits .f32 = 32 ∨ (Rect.block (s := S512) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S512.size a
  hwx0_10 : ∀ i : grid0.Coords, EltTy.bits .f32 = 32 ∨ (Rect.block (s := S512) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x512.size a
  hwx0_11 : ∀ i : grid0.Coords, EltTy.bits .f32 = 32 ∨ (Rect.block (s := S128x512) S128x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x512.size a
  hwx0_12 : ∀ i : grid0.Coords, EltTy.bits .f32 = 32 ∨ (Rect.block (s := S128x512) S128x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x512.size a
  hwx0_13 : ∀ i : grid0.Coords, EltTy.bits .f32 = 32 ∨ (Rect.block (s := S128x512) S128x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x512.size a
  hwx0_14 : ∀ i : grid0.Coords, EltTy.bits .f32 = 32 ∨ (Rect.block (s := S128x512) S128x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x512.size a
  hwx0_15 : ∀ i : grid0.Coords, EltTy.bits .f32 = 32 ∨ (Rect.block (s := S128x512) S128x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x512.size a
  hwx0_16 : ∀ i : grid0.Coords, EltTy.bits .f32 = 32 ∨ (Rect.block (s := S128x512) S128x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S512.size a
  hwx0_17 : ∀ i : grid0.Coords, EltTy.bits .f32 = 32 ∨ (Rect.block (s := S512) S128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S128.size a ≤ S512.size a
  hwx0_18 : ∀ i : grid0.Coords, EltTy.bits .f32 = 32 ∨ (Rect.block (s := S512) S128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S128.size a ≤ S512.size a
  hwx0_19 : ∀ i : grid0.Coords, EltTy.bits .f32 = 32 ∨ (Rect.block (s := S512) S128.size (cc0_transform_19 i) (hinb0_19 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x512.size a ≤ S128x256x512.size a
  hwx1_0 : ∀ i : grid1.Coords, EltTy.bits .f32 = 32 ∨ (Rect.block (s := S128x256x512) S2x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x256x512.size a ≤ S128x256x512.size a
  hwx1_1 : ∀ i : grid1.Coords, EltTy.bits .f32 = 32 ∨ (Rect.block (s := S128x256x512) S2x256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x256x512.size a ≤ S128x256x512.size a
  hwx1_2 : ∀ i : grid1.Coords, EltTy.bits .f32 = 32 ∨ (Rect.block (s := S128x256x512) S2x256x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x256x512.size a ≤ S128x256x512.size a
  hwx1_3 : ∀ i : grid1.Coords, EltTy.bits .f32 = 32 ∨ (Rect.block (s := S128x256x512) S2x256x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x256x1.size a ≤ S128x256x1.size a
  hwx1_4 : ∀ i : grid1.Coords, EltTy.bits .f32 = 32 ∨ (Rect.block (s := S128x256x1) S2x256x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2x256x512.size a ≤ S128x256x512.size a
  hwx1_8 : ∀ i : grid1.Coords, EltTy.bits .f32 = 32 ∨ (Rect.block (s := S128x256x512) S2x256x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2x256x512.size a ≤ S128x256x512.size a
  hwx1_9 : ∀ i : grid1.Coords, EltTy.bits .f32 = 32 ∨ (Rect.block (s := S128x256x512) S2x256x512.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2x256x512.size a ≤ S128x256x512.size a
  hwx1_10 : ∀ i : grid1.Coords, EltTy.bits .f32 = 32 ∨ (Rect.block (s := S128x256x512) S2x256x512.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2x256x512.size a ≤ S128x256x512.size a
  hwx1_11 : ∀ i : grid1.Coords, EltTy.bits .f32 = 32 ∨ (Rect.block (s := S128x256x512) S2x256x512.size (cc1_transform_11 i) (hinb1_11 i)).WholeWords (EltTy.packing .f32)

variable [Facts₀]

def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_arg0) S128x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S256x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S256x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S128x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S128x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_2) S128x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_3) S128x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_4) S128x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_5) S128x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v0_6) S128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v0_7) S128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v0_8) S128.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

abbrev win1_0 : Pipeline.Window sig grid1 :=
  Pipeline.Window.ofSpec (Memref.whole main_arg7) S2x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S2x256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S2x256x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S2x256x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S2x256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_6) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0_7) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0_8) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4_0) S2x256x512.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v4_1) S2x256x512.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v4_2) S2x256x512.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v4_3) S2x256x512.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S128x256 : Shape := ⟨2, ![128, 256]⟩
abbrev S128x512 : Shape := ⟨2, ![128, 512]⟩
abbrev S128x256x512 : Shape := ⟨3, ![128, 256, 512]⟩
abbrev S256x512 : Shape := ⟨2, ![256, 512]⟩
abbrev S512 : Shape := ⟨1, ![512]⟩
abbrev S_ : Shape := ⟨0, ![]⟩
abbrev S1x512 : Shape := ⟨2, ![1, 512]⟩
abbrev S128x256x1 : Shape := ⟨3, ![128, 256, 1]⟩
abbrev S1x1x512 : Shape := ⟨3, ![1, 1, 512]⟩
abbrev S128x1024 : Shape := ⟨2, ![128, 1024]⟩

abbrev nBuf : Space → Nat
  | .hbm => 169
  | .vmem => 0
  | .smem => 0
  | _ => 0

abbrev hbmTy0_0 (i : Nat) : BufTy := match i % 128 with
  | 0 => ⟨S128x256, .f32⟩
  | 1 => ⟨S128x512, .f32⟩
  | 2 => ⟨S128x512, .f32⟩
  | 3 => ⟨S128x512, .f32⟩
  | 4 => ⟨S128x512, .f32⟩
  | 5 => ⟨S128x512, .f32⟩
  | 6 => ⟨S128x512, .f32⟩
  | 7 => ⟨S128x256x512, .f32⟩
  | 8 => ⟨S128x256x512, .f32⟩
  | 9 => ⟨S128x256x512, .f32⟩
  | 10 => ⟨S128x256x512, .f32⟩
  | 11 => ⟨S256x512, .f32⟩
  | 12 => ⟨S256x512, .f32⟩
  | 13 => ⟨S512, .f32⟩
  | 14 => ⟨S512, .f32⟩
  | 15 => ⟨S512, .f32⟩
  | 16 => ⟨S512, .f32⟩
  | 17 => ⟨S512, .f32⟩
  | 18 => ⟨S512, .f32⟩
  | 19 => ⟨S512, .f32⟩
  | 20 => ⟨S_, .f32⟩
  | 21 => ⟨S512, .f32⟩
  | 22 => ⟨S512, .f32⟩
  | 23 => ⟨S512, .f32⟩
  | 24 => ⟨S512, .f32⟩
  | 25 => ⟨S512, .f32⟩
  | 26 => ⟨S512, .f32⟩
  | 27 => ⟨S512, .f32⟩
  | 28 => ⟨S128x512, .f32⟩
  | 29 => ⟨S128x512, .f32⟩
  | 30 => ⟨S1x512, .f32⟩
  | 31 => ⟨S128x512, .f32⟩
  | 32 => ⟨S128x512, .f32⟩
  | 33 => ⟨S1x512, .f32⟩
  | 34 => ⟨S128x512, .f32⟩
  | 35 => ⟨S128x512, .f32⟩
  | 36 => ⟨S128x512, .f32⟩
  | 37 => ⟨S1x512, .f32⟩
  | 38 => ⟨S128x512, .f32⟩
  | 39 => ⟨S128x512, .f32⟩
  | 40 => ⟨S128x512, .f32⟩
  | 41 => ⟨S1x512, .f32⟩
  | 42 => ⟨S128x512, .f32⟩
  | 43 => ⟨S128x512, .f32⟩
  | 44 => ⟨S1x512, .f32⟩
  | 45 => ⟨S128x512, .f32⟩
  | 46 => ⟨S128x512, .f32⟩
  | 47 => ⟨S128x512, .f32⟩
  | 48 => ⟨S1x512, .f32⟩
  | 49 => ⟨S128x512, .f32⟩
  | 50 => ⟨S128x512, .f32⟩
  | 51 => ⟨S128x512, .f32⟩
  | 52 => ⟨S512, .f32⟩
  | 53 => ⟨S512, .f32⟩
  | 54 => ⟨S512, .f32⟩
  | 55 => ⟨S512, .f32⟩
  | 56 => ⟨S512, .f32⟩
  | 57 => ⟨S512, .f32⟩
  | 58 => ⟨S512, .f32⟩
  | 59 => ⟨S512, .f32⟩
  | 60 => ⟨S512, .f32⟩
  | 61 => ⟨S512, .f32⟩
  | 62 => ⟨S1x512, .f32⟩
  | 63 => ⟨S128x512, .f32⟩
  | 64 => ⟨S128x512, .f32⟩
  | 65 => ⟨S1x512, .f32⟩
  | 66 => ⟨S128x512, .f32⟩
  | 67 => ⟨S128x512, .f32⟩
  | 68 => ⟨S128x512, .f32⟩
  | 69 => ⟨S1x512, .f32⟩
  | 70 => ⟨S128x512, .f32⟩
  | 71 => ⟨S128x512, .f32⟩
  | 72 => ⟨S128x512, .f32⟩
  | 73 => ⟨S1x512, .f32⟩
  | 74 => ⟨S128x512, .f32⟩
  | 75 => ⟨S128x512, .f32⟩
  | 76 => ⟨S128x512, .f32⟩
  | 77 => ⟨S1x512, .f32⟩
  | 78 => ⟨S128x512, .f32⟩
  | 79 => ⟨S128x512, .f32⟩
  | 80 => ⟨S128x512, .f32⟩
  | 81 => ⟨S1x512, .f32⟩
  | 82 => ⟨S128x512, .f32⟩
  | 83 => ⟨S128x512, .f32⟩
  | 84 => ⟨S1x512, .f32⟩
  | 85 => ⟨S128x512, .f32⟩
  | 86 => ⟨S128x512, .f32⟩
  | 87 => ⟨S128x512, .f32⟩
  | 88 => ⟨S1x512, .f32⟩
  | 89 => ⟨S128x512, .f32⟩
  | 90 => ⟨S128x512, .f32⟩
  | 91 => ⟨S128x512, .f32⟩
  | 92 => ⟨S1x512, .f32⟩
  | 93 => ⟨S128x512, .f32⟩
  | 94 => ⟨S128x512, .f32⟩
  | 95 => ⟨S128x512, .f32⟩
  | 96 => ⟨S1x512, .f32⟩
  | 97 => ⟨S128x512, .f32⟩
  | 98 => ⟨S128x512, .f32⟩
  | 99 => ⟨S128x512, .f32⟩
  | 100 => ⟨S1x512, .f32⟩
  | 101 => ⟨S128x512, .f32⟩
  | 102 => ⟨S128x512, .f32⟩
  | 103 => ⟨S1x512, .f32⟩
  | 104 => ⟨S128x512, .f32⟩
  | 105 => ⟨S128x512, .f32⟩
  | 106 => ⟨S128x512, .f32⟩
  | 107 => ⟨S1x512, .f32⟩
  | 108 => ⟨S128x512, .f32⟩
  | 109 => ⟨S128x512, .f32⟩
  | 110 => ⟨S128x512, .f32⟩
  | 111 => ⟨S1x512, .f32⟩
  | 112 => ⟨S128x512, .f32⟩
  | 113 => ⟨S128x512, .f32⟩
  | 114 => ⟨S128x512, .f32⟩
  | 115 => ⟨S1x512, .f32⟩
  | 116 => ⟨S128x512, .f32⟩
  | 117 => ⟨S128x512, .f32⟩
  | 118 => ⟨S1x512, .f32⟩
  | 119 => ⟨S128x512, .f32⟩
  | 120 => ⟨S128x512, .f32⟩
  | 121 => ⟨S128x512, .f32⟩
  | 122 => ⟨S1x512, .f32⟩
  | 123 => ⟨S128x512, .f32⟩
  | 124 => ⟨S128x512, .f32⟩
  | 125 => ⟨S128x512, .f32⟩
  | 126 => ⟨S1x512, .f32⟩
  | 127 => ⟨S128x512, .f32⟩
  | _ => ⟨S128x256, .f32⟩

abbrev hbmTy0_1 (i : Nat) : BufTy := match i % 128 with
  | 0 => ⟨S128x512, .f32⟩
  | 1 => ⟨S128x512, .f32⟩
  | 2 => ⟨S128x256x1, .f32⟩
  | 3 => ⟨S1x1x512, .f32⟩
  | 4 => ⟨S128x256x512, .f32⟩
  | 5 => ⟨S128x256x512, .f32⟩
  | 6 => ⟨S128x256x512, .f32⟩
  | 7 => ⟨S1x1x512, .f32⟩
  | 8 => ⟨S128x256x512, .f32⟩
  | 9 => ⟨S128x256x512, .f32⟩
  | 10 => ⟨S1x1x512, .f32⟩
  | 11 => ⟨S128x256x512, .f32⟩
  | 12 => ⟨S128x256x512, .f32⟩
  | 13 => ⟨S128x256x512, .f32⟩
  | 14 => ⟨S128x256x512, .f32⟩
  | 15 => ⟨S1x1x512, .f32⟩
  | 16 => ⟨S128x256x512, .f32⟩
  | 17 => ⟨S128x256x512, .f32⟩
  | 18 => ⟨S1x1x512, .f32⟩
  | 19 => ⟨S128x256x512, .f32⟩
  | 20 => ⟨S128x256x512, .f32⟩
  | 21 => ⟨S128x256x512, .f32⟩
  | 22 => ⟨S1x1x512, .f32⟩
  | 23 => ⟨S128x256x512, .f32⟩
  | 24 => ⟨S128x256x512, .f32⟩
  | 25 => ⟨S1x1x512, .f32⟩
  | 26 => ⟨S128x256x512, .f32⟩
  | 27 => ⟨S128x256x512, .f32⟩
  | 28 => ⟨S128x256x512, .f32⟩
  | 29 => ⟨S1x1x512, .f32⟩
  | 30 => ⟨S128x256x512, .f32⟩
  | 31 => ⟨S128x256x512, .f32⟩
  | 32 => ⟨S1x1x512, .f32⟩
  | 33 => ⟨S128x256x512, .f32⟩
  | 34 => ⟨S128x256x512, .f32⟩
  | 35 => ⟨S128x256x512, .f32⟩
  | 36 => ⟨S128x256x512, .f32⟩
  | 37 => ⟨S128x1024, .f32⟩
  | 38 => ⟨S_, .f32⟩
  | 39 => ⟨S128x1024, .f32⟩
  | 40 => ⟨S128x1024, .f32⟩
  | _ => ⟨S128x256, .f32⟩

abbrev hbmTy (i : Nat) : BufTy := match i / 128 with
  | 0 => hbmTy0_0 i
  | 1 => hbmTy0_1 i
  | _ => ⟨S128x256, .f32⟩

abbrev bufTy : (tb : Table) → Fin (tcTables nBuf tb) → BufTy
  | .hbm, ⟨i, _⟩ => hbmTy i
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_call0_cst : Ref sig .tc := ⟨.hbm, 166, rfl⟩
abbrev main_call0_v0 : Ref sig .tc := ⟨.hbm, 167, rfl⟩
abbrev main_v150 : Ref sig .tc := ⟨.hbm, 168, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S128x256_S128x256x1_0_1 : S128x256.BroadcastsInDim S128x256x1 (![0, 1] : Fin 2 → Fin S128x256x1.rank)
  bcast_S512_S1x1x512_2 : S512.BroadcastsInDim S1x1x512 (![2] : Fin 1 → Fin S1x1x512.rank)
  bcast_S1x1x512_S128x256x512_0_1_2 : S1x1x512.BroadcastsInDim S128x256x512 (![0, 1, 2] : Fin 3 → Fin S128x256x512.rank)
  bcast_S128x256x1_S128x256x512_0_1_2 : S128x256x1.BroadcastsInDim S128x256x512 (![0, 1, 2] : Fin 3 → Fin S128x256x512.rank)
  concatenates_S128x512_S128x512_S128x1024_d1 : Shape.Concatenates [S128x512, S128x512] S128x1024 1
  bcast_S_S128x1024 : S_.BroadcastsInDim S128x1024 (![] : Fin 0 → Fin S128x1024.rank)
  dot_S128x256_S256x512_S128x512_1_0_0_1_n_n_wf : DotDims.WF S128x256 S256x512 S128x512 [1] [0] [0] [1] [] []

variable [Facts₀]

def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf

class Facts : Prop extends Facts₀ where

variable [Facts]
-- ==== Proof.Spec.lean ====
/-
  The mathematics both programs compute, on the extended reals.

  A rotational recurrent unit keeps, per hidden lane, a decay radius and an angle.  From the two parameter vectors
  `ν` and `ϑ` a lane has  `e = exp ν`,  `r = exp (−e)`,  `θ = exp ϑ`,  the input gain `g = √(1 − r²)`  and the rotation
  entries  `A = r·cos θ`,  `B = r·sin θ`.  One step rotates the pair of hidden states and adds the gained input
  projections `x·W₁`, `x·W₂`; the same rotation, plus the derivatives of `A`, `B`, `g` along `ν` and `ϑ`, carries the
  sensitivity traces forward.  Everything below is one lane's scalar formula, then each result as a function of the
  coordinates of its entry.  Sums and products are taken in the order the source writes them; nothing is rearranged.
-/
import Idealize.ShloMosaic.PureOps.Ideal
import Idealize.ShloMosaic.PureOps.Ideal.Laws
import Idealize.ShloMosaic.Lib.ValueIdx

noncomputable section

namespace Cert.Rtu

open Idealize.ShloMosaic Idealize.ShloMosaic.ValueIdx
open scoped BigOperators

/-! ## Arrays given by coordinates -/

/-- A rank-1 array from a function of its coordinate. -/
def arr1 {α : Type} {n : ℕ} (f : Fin n → α) : (⟨1, ![n]⟩ : Shape).Idx → α :=
  fun i => f ⟨(i 0).val, (i 0).isLt⟩
/-- A rank-2 array from a function of its coordinates. -/
def arr2 {α : Type} {n0 n1 : ℕ} (f : Fin n0 → Fin n1 → α) : (⟨2, ![n0, n1]⟩ : Shape).Idx → α :=
  fun i => f ⟨(i 0).val, (i 0).isLt⟩ ⟨(i 1).val, (i 1).isLt⟩
/-- A rank-3 array from a function of its coordinates. -/
def arr3 {α : Type} {n0 n1 n2 : ℕ} (f : Fin n0 → Fin n1 → Fin n2 → α) : (⟨3, ![n0, n1, n2]⟩ : Shape).Idx → α :=
  fun i => f ⟨(i 0).val, (i 0).isLt⟩ ⟨(i 1).val, (i 1).isLt⟩ ⟨(i 2).val, (i 2).isLt⟩

theorem arr1_ix1 {α : Type} {n : ℕ} (f : Fin n → α) (a : Fin n) : arr1 f (ix1 a) = f a := rfl
theorem arr2_ix2 {α : Type} {n0 n1 : ℕ} (f : Fin n0 → Fin n1 → α) (a : Fin n0) (b : Fin n1) : arr2 f (ix2 a b) = f a b := rfl
theorem arr3_ix3 {α : Type} {n0 n1 n2 : ℕ} (f : Fin n0 → Fin n1 → Fin n2 → α) (a : Fin n0) (b : Fin n1) (c : Fin n2) :
    arr3 f (ix3 a b c) = f a b c := rfl

/-- Two rank-1 arrays agreeing at every coordinate are equal. -/
theorem ext1 {α : Type} {n : ℕ} {u v : (⟨1, ![n]⟩ : Shape).Idx → α} (h : ∀ a, u (ix1 a) = v (ix1 a)) : u = v :=
  funext fun i => by rw [eq_ix1 i]; exact h _
/-- Two rank-2 arrays agreeing at every pair of coordinates are equal. -/
theorem ext2 {α : Type} {n0 n1 : ℕ} {u v : (⟨2, ![n0, n1]⟩ : Shape).Idx → α} (h : ∀ a b, u (ix2 a b) = v (ix2 a b)) : u = v :=
  funext fun i => by rw [eq_ix2 i]; exact h _ _
/-- Two rank-3 arrays agreeing at every triple of coordinates are equal. -/
theorem ext3 {α : Type} {n0 n1 n2 : ℕ} {u v : (⟨3, ![n0, n1, n2]⟩ : Shape).Idx → α}
    (h : ∀ a b c, u (ix3 a b c) = v (ix3 a b c)) : u = v :=
  funext fun i => by rw [eq_ix3 i]; exact h _ _ _

/-! ## One lane -/

/-- The binary32 word of the number one. -/
abbrev one : EReal := Ideal.ofBits .f32 0x3F800000#32

/-- `e = exp ν`. -/
def growth (a : EReal) : EReal := Ideal.exp a
/-- `r = exp (−exp ν)`, the decay radius. -/
def radius (a : EReal) : EReal := Ideal.exp (-(growth a))
/-- `θ = exp ϑ`, the rotation angle. -/
def angle (b : EReal) : EReal := Ideal.exp b
/-- `g = √(1 − r²)`, the input gain. -/
def gain (a : EReal) : EReal := Ideal.sqrt (one - radius a * radius a)
/-- `A = r · cos θ`. -/
def rotA (a b : EReal) : EReal := radius a * Ideal.cos (angle b)
/-- `B = r · sin θ`. -/
def rotB (a b : EReal) : EReal := radius a * Ideal.sin (angle b)
/-- `∂A/∂ν = −A · e`. -/
def dAν (a b : EReal) : EReal := -(rotA a b) * growth a
/-- `∂B/∂ν = −B · e`. -/
def dBν (a b : EReal) : EReal := -(rotB a b) * growth a
/-- `∂g/∂ν = r² · e / g`. -/
def dgν (a : EReal) : EReal := Ideal.div (radius a * radius a * growth a) (gain a)
/-- `∂A/∂ϑ = −B · θ`. -/
def dAθ (a b : EReal) : EReal := -(rotB a b) * angle b
/-- `∂B/∂ϑ = A · θ`. -/
def dBθ (a b : EReal) : EReal := rotA a b * angle b

/-- First row of the rotation applied to a pair: `A·u − B·v`. -/
def rot1 (a b u v : EReal) : EReal := rotA a b * u - rotB a b * v
/-- Second row of the rotation applied to a pair: `B·u + A·v`. -/
def rot2 (a b u v : EReal) : EReal := rotB a b * u + rotA a b * v

/-- New first hidden state: the rotated pair plus the gained projection `s`. -/
def hid1 (a b p q s : EReal) : EReal := rot1 a b p q + gain a * s
/-- New second hidden state. -/
def hid2 (a b p q s : EReal) : EReal := rot2 a b p q + gain a * s
/-- Trace along `ν`, first component: rotated old trace `(u, v)`, the derivative of the rotation on the states `(p, q)`,
    the derivative of the gain on the projection `s`. -/
def trν1 (a b u v p q s : EReal) : EReal := rot1 a b u v + dAν a b * p - dBν a b * q + dgν a * s
/-- Trace along `ν`, second component. -/
def trν2 (a b u v p q s : EReal) : EReal := rot2 a b u v + dBν a b * p + dAν a b * q + dgν a * s
/-- Trace along `ϑ`, first component. -/
def trθ1 (a b u v p q : EReal) : EReal := rot1 a b u v + dAθ a b * p - dBθ a b * q
/-- Trace along `ϑ`, second component. -/
def trθ2 (a b u v p q : EReal) : EReal := rot2 a b u v + dBθ a b * p + dAθ a b * q

/-! ## The results, entry by entry -/

section Results

variable {T D H : ℕ}
variable (x : (⟨2, ![T, D]⟩ : Shape).Idx → EReal) (w : (⟨2, ![D, H]⟩ : Shape).Idx → EReal)
variable (ν ϑ : (⟨1, ![H]⟩ : Shape).Idx → EReal)

/-- Entry `(p, q)` of the input projection `x · w`. -/
def proj (p : Fin T) (q : Fin H) : EReal := ∑ k : Fin D, x (ix2 p k) * w (ix2 k q)

/-- The rotation entries and the gain, lane by lane. -/
def vecA : (⟨1, ![H]⟩ : Shape).Idx → EReal := arr1 fun q => rotA (ν (ix1 q)) (ϑ (ix1 q))
def vecB : (⟨1, ![H]⟩ : Shape).Idx → EReal := arr1 fun q => rotB (ν (ix1 q)) (ϑ (ix1 q))
def vecG : (⟨1, ![H]⟩ : Shape).Idx → EReal := arr1 fun q => gain (ν (ix1 q))

variable (h1 h2 u1 u2 : (⟨2, ![T, H]⟩ : Shape).Idx → EReal)

/-- The two new hidden states. -/
def newH1 : (⟨2, ![T, H]⟩ : Shape).Idx → EReal :=
  arr2 fun p q => hid1 (ν (ix1 q)) (ϑ (ix1 q)) (h1 (ix2 p q)) (h2 (ix2 p q)) (proj x w p q)
def newH2 : (⟨2, ![T, H]⟩ : Shape).Idx → EReal :=
  arr2 fun p q => hid2 (ν (ix1 q)) (ϑ (ix1 q)) (h1 (ix2 p q)) (h2 (ix2 p q)) (proj x w p q)
/-- The two traces along `ν` (old traces `u1`, `u2`). -/
def newN1 : (⟨2, ![T, H]⟩ : Shape).Idx → EReal :=
  arr2 fun p q => trν1 (ν (ix1 q)) (ϑ (ix1 q)) (u1 (ix2 p q)) (u2 (ix2 p q)) (h1 (ix2 p q)) (h2 (ix2 p q)) (proj x w p q)
def newN2 : (⟨2, ![T, H]⟩ : Shape).Idx → EReal :=
  arr2 fun p q => trν2 (ν (ix1 q)) (ϑ (ix1 q)) (u1 (ix2 p q)) (u2 (ix2 p q)) (h1 (ix2 p q)) (h2 (ix2 p q)) (proj x w p q)
/-- The two traces along `ϑ` (old traces `u1`, `u2`). -/
def newT1 : (⟨2, ![T, H]⟩ : Shape).Idx → EReal :=
  arr2 fun p q => trθ1 (ν (ix1 q)) (ϑ (ix1 q)) (u1 (ix2 p q)) (u2 (ix2 p q)) (h1 (ix2 p q)) (h2 (ix2 p q))
def newT2 : (⟨2, ![T, H]⟩ : Shape).Idx → EReal :=
  arr2 fun p q => trθ2 (ν (ix1 q)) (ϑ (ix1 q)) (u1 (ix2 p q)) (u2 (ix2 p q)) (h1 (ix2 p q)) (h2 (ix2 p q))

variable (m1 m2 : (⟨3, ![T, D, H]⟩ : Shape).Idx → EReal)

/-- The weight traces: the rotated old pair `(m1, m2)`, with or without the direct term `g · x`. -/
def newW1 : (⟨3, ![T, D, H]⟩ : Shape).Idx → EReal :=
  arr3 fun p d q => rot1 (ν (ix1 q)) (ϑ (ix1 q)) (m1 (ix3 p d q)) (m2 (ix3 p d q))
def newW2 : (⟨3, ![T, D, H]⟩ : Shape).Idx → EReal :=
  arr3 fun p d q => rot2 (ν (ix1 q)) (ϑ (ix1 q)) (m1 (ix3 p d q)) (m2 (ix3 p d q))
def newW1x : (⟨3, ![T, D, H]⟩ : Shape).Idx → EReal :=
  arr3 fun p d q => rot1 (ν (ix1 q)) (ϑ (ix1 q)) (m1 (ix3 p d q)) (m2 (ix3 p d q)) + gain (ν (ix1 q)) * x (ix2 p d)
def newW2x : (⟨3, ![T, D, H]⟩ : Shape).Idx → EReal :=
  arr3 fun p d q => rot2 (ν (ix1 q)) (ϑ (ix1 q)) (m1 (ix3 p d q)) (m2 (ix3 p d q)) + gain (ν (ix1 q)) * x (ix2 p d)

end Results

/-! ## The weight traces from given rotation vectors

The second kernel does not recompute the per-lane quantities: it is handed the three vectors `a`, `b`, `g` and the input
with a last unit axis.  These are the same four results with the vectors as data. -/

section Given

variable {T D H : ℕ}
variable (a b g : (⟨1, ![H]⟩ : Shape).Idx → EReal) (x3 : (⟨3, ![T, D, 1]⟩ : Shape).Idx → EReal)
variable (m1 m2 : (⟨3, ![T, D, H]⟩ : Shape).Idx → EReal)

def turn1 : (⟨3, ![T, D, H]⟩ : Shape).Idx → EReal :=
  arr3 fun p d q => a (ix1 q) * m1 (ix3 p d q) - b (ix1 q) * m2 (ix3 p d q)
def turn2 : (⟨3, ![T, D, H]⟩ : Shape).Idx → EReal :=
  arr3 fun p d q => b (ix1 q) * m1 (ix3 p d q) + a (ix1 q) * m2 (ix3 p d q)
def turn1x : (⟨3, ![T, D, H]⟩ : Shape).Idx → EReal :=
  arr3 fun p d q => (a (ix1 q) * m1 (ix3 p d q) - b (ix1 q) * m2 (ix3 p d q)) + g (ix1 q) * x3 (ix3 p d (0 : Fin 1))
def turn2x : (⟨3, ![T, D, H]⟩ : Shape).Idx → EReal :=
  arr3 fun p d q => (b (ix1 q) * m1 (ix3 p d q) + a (ix1 q) * m2 (ix3 p d q)) + g (ix1 q) * x3 (ix3 p d (0 : Fin 1))

end Given

section GivenIs

variable {T D H : ℕ}
variable (x : (⟨2, ![T, D]⟩ : Shape).Idx → EReal) (ν ϑ : (⟨1, ![H]⟩ : Shape).Idx → EReal)
variable (x3 : (⟨3, ![T, D, 1]⟩ : Shape).Idx → EReal) (m1 m2 : (⟨3, ![T, D, H]⟩ : Shape).Idx → EReal)

/-- With the vectors the first kernel computes, the rotations are the weight traces. -/
theorem turn1_vec : turn1 (vecA ν ϑ) (vecB ν ϑ) m1 m2 = newW1 ν ϑ m1 m2 := ext3 fun _ _ _ => rfl
theorem turn2_vec : turn2 (vecA ν ϑ) (vecB ν ϑ) m1 m2 = newW2 ν ϑ m1 m2 := ext3 fun _ _ _ => rfl
theorem turn1x_vec (hx : ∀ p d, x3 (ix3 p d (0 : Fin 1)) = x (ix2 p d)) :
    turn1x (vecA ν ϑ) (vecB ν ϑ) (vecG ν) x3 m1 m2 = newW1x x ν ϑ m1 m2 :=
  ext3 fun p d q => by
    show (rotA (ν (ix1 q)) (ϑ (ix1 q)) * m1 (ix3 p d q) - rotB (ν (ix1 q)) (ϑ (ix1 q)) * m2 (ix3 p d q))
        + gain (ν (ix1 q)) * x3 (ix3 p d (0 : Fin 1)) = _
    rw [hx]; rfl
theorem turn2x_vec (hx : ∀ p d, x3 (ix3 p d (0 : Fin 1)) = x (ix2 p d)) :
    turn2x (vecA ν ϑ) (vecB ν ϑ) (vecG ν) x3 m1 m2 = newW2x x ν ϑ m1 m2 :=
  ext3 fun p d q => by
    show (rotB (ν (ix1 q)) (ϑ (ix1 q)) * m1 (ix3 p d q) + rotA (ν (ix1 q)) (ϑ (ix1 q)) * m2 (ix3 p d q))
        + gain (ν (ix1 q)) * x3 (ix3 p d (0 : Fin 1)) = _
    rw [hx]; rfl

end GivenIs

/-! ## Two facts about the extended reals -/

/-- The zero word minus `x` is `−x`. -/
theorem zero_word_sub (x : EReal) : Ideal.ofBits .f32 0x00000000#32 - x = -x := by
  rw [Ideal.ofBits_zero_f32, zero_sub]

end Cert.Rtu

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibLaneLayout.lean ====
/-
  Three layout operations read at an index, for a per-lane vector used against a rank-3 array, and the vector unit's
  one-operand functions read at an index on the extended reals:
  * a vector of `c` entries cast to a `[1, 1, c]` array reads the operand at the lane's own entry;
  * a `[1, 1, c]` array broadcast to `[a, b, c]` reads its one line at the lane;
  * an `[a, b, 1]` array broadcast to `[a, b, c]` reads its entry at the first two coordinates, whatever the lane.
-/
import Idealize.ShloMosaic.Lib.Pipeline.Value
import Idealize.ShloMosaic.Lib.ValueIdx

namespace Cert.LaneLayout

open Idealize.ShloMosaic Idealize.ShloMosaic.ValueIdx

variable {α : Type}

/-- A `[c]` array cast to `[1, 1, c]` reads, at `(u, v, q)`, the operand at `q`: the two indices have the same
    row-major position `q`. -/
theorem shapeCast_c_11c_apply {c : ℕ} (x : (⟨1, ![c]⟩ : Shape).Idx → α) (h : (⟨1, ![c]⟩ : Shape).ShapeCasts ⟨3, ![1, 1, c]⟩)
    (u v : Fin 1) (q : Fin c) : shapeCast ⟨3, ![1, 1, c]⟩ x h (ix3 u v q) = x (ix1 q) :=
  shapeCast_apply x h _ _ (by
    have hu : u.val = 0 := by omega
    have hv : v.val = 0 := by omega
    rw [Shape.rowMajor_val_three, Shape.rowMajor_val_one]
    show q.val = (u.val * 1 + v.val) * c + q.val
    rw [hu, hv]; simp)

/-- A `[1, 1, c]` array broadcast to `[a, b, c]` reads, at `(p, d, q)`, its one line at `q`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (d : Fin b) (q : Fin c) :
    broadcastTo ⟨3, ![a, b, c]⟩ v h (ix3 p d q) = v (ix3 (0 : Fin 1) (0 : Fin 1) q) := by
  refine broadcastTo_apply v h (ix3 p d q) (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

/-- An `[a, b, 1]` array broadcast to `[a, b, c]` reads, at `(p, d, q)`, its entry at `(p, d)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (d : Fin b) (q : Fin c) :
    broadcastTo ⟨3, ![a, b, c]⟩ v h (ix3 p d q) = v (ix3 p d (0 : Fin 1)) := by
  refine broadcastTo_apply v h (ix3 p d q) (ix3 p d (0 : Fin 1)) fun ax => ?_
  match ax with
  | ⟨0, _⟩ =>
    show p.val = if a = 1 then 0 else p.val
    split
    · have := p.isLt; omega
    · rfl
  | ⟨1, _⟩ =>
    show d.val = if b = 1 then 0 else d.val
    split
    · have := d.isLt; omega
    · rfl
  | ⟨2, _⟩ => rfl

/-! ## The vector unit's one-operand functions at an index -/

section Pointwise
variable {s : Shape} {φ : FTy}

theorem exp_apply (a : FVec Ideal s φ) (i : s.Idx) : exp a i = Ideal.exp (a i) := rfl
theorem sqrt_apply (a : FVec Ideal s φ) (i : s.Idx) : sqrt a i = Ideal.sqrt (a i) := rfl
theorem cos_apply (a : FVec Ideal s φ) (i : s.Idx) : cos a i = Ideal.cos (a i) := rfl
theorem sin_apply (a : FVec Ideal s φ) (i : s.Idx) : sin a i = Ideal.sin (a i) := rfl

end Pointwise

end Cert.LaneLayout
-- ==== Proof.PaySmall.lean ====
/-
  The first kernel's arithmetic, read at an entry of a block on the extended reals.

  One grid point sees 128 lanes of the two parameter vectors, the matching 128 columns of every `[128, 512]` input and
  of the two weight matrices, and all of `x`.  The per-lane quantities (`e`, `r`, `θ`, `g`, `A`, `B` and the five
  derivatives) are computed on a `[1, 128]` row and repeated down the 128 rows; the two input projections are matrix
  products of the block operands rounded to bfloat16, which is the identity here, into a zero accumulator.  Each stored
  block is then, entry by entry, the lane formula of Spec.lean at the lane's column.
-/
import proofs.«155310_j53712861003855_2_alg».proof.Proof.Gen.KernelIdeal.Skeleton
import proofs.«155310_j53712861003855_2_alg».proof.Proof.Spec
import proofs.«155310_j53712861003855_2_alg».proof.Proof.LibMlpRows
import proofs.«155310_j53712861003855_2_alg».proof.Proof.LibLaneLayout
import Idealize.ShloMosaic.Lib.ValueLayout

noncomputable section

namespace Cert.KernelIdeal.Small

open Cert.KernelIdeal Cert.KernelIdeal.Gen Cert.Rtu Cert.LaneLayout Cert.LibMlp
open Idealize.ShloMosaic Idealize.ShloMosaic.ValueIdx

/-! ## The per-lane row -/

section Lanes

variable (ν ϑ : Vec Ideal S128 .f32) (u : Fin 1) (q : Fin 128)

theorem growth_row : k0_pay6 (F := Ideal) ν (ix2 u q) = growth (ν (ix1 q)) := by
  unfold k0_pay6
  exact shapeCast_a_1a_apply _ _ u q

theorem angle_row : k0_pay8 (F := Ideal) ϑ (ix2 u q) = angle (ϑ (ix1 q)) := by
  unfold k0_pay8
  exact shapeCast_a_1a_apply _ _ u q

theorem radius_row : k0_pay7 (F := Ideal) ν (ix2 u q) = radius (ν (ix1 q)) := by
  show Ideal.exp (Ideal.ofBits .f32 0x00000000#32 - k0_pay6 (F := Ideal) ν (ix2 u q)) = _
  rw [growth_row, zero_word_sub]
  rfl

theorem gain_row : k0_pay9 (F := Ideal) ν (ix2 u q) = gain (ν (ix1 q)) := by
  show Ideal.sqrt (one - k0_pay7 (F := Ideal) ν (ix2 u q) * k0_pay7 (F := Ideal) ν (ix2 u q)) = _
  rw [radius_row]
  rfl

theorem rotA_row : k0_pay10 (F := Ideal) ν ϑ (ix2 u q) = rotA (ν (ix1 q)) (ϑ (ix1 q)) := by
  show k0_pay7 (F := Ideal) ν (ix2 u q) * Ideal.cos (k0_pay8 (F := Ideal) ϑ (ix2 u q)) = _
  rw [radius_row, angle_row]
  rfl

theorem rotB_row : k0_pay11 (F := Ideal) ν ϑ (ix2 u q) = rotB (ν (ix1 q)) (ϑ (ix1 q)) := by
  show k0_pay7 (F := Ideal) ν (ix2 u q) * Ideal.sin (k0_pay8 (F := Ideal) ϑ (ix2 u q)) = _
  rw [radius_row, angle_row]
  rfl

/-- `−a · e` on rows: the derivative of a rotation entry along `ν`, or along `ϑ` with the angle in place of `e`. -/
theorem negmul_row19 (e a : FVec Ideal S1x128 .f32) : k0_pay19 (F := Ideal) e a (ix2 u q) = -(a (ix2 u q)) * e (ix2 u q) := by
  show (Ideal.ofBits .f32 0x00000000#32 - a (ix2 u q)) * e (ix2 u q) = _
  rw [zero_word_sub]
theorem negmul_row20 (e a : FVec Ideal S1x128 .f32) : k0_pay20 (F := Ideal) e a (ix2 u q) = -(a (ix2 u q)) * e (ix2 u q) := by
  show (Ideal.ofBits .f32 0x00000000#32 - a (ix2 u q)) * e (ix2 u q) = _
  rw [zero_word_sub]
theorem negmul_row22 (e a : FVec Ideal S1x128 .f32) : k0_pay22 (F := Ideal) e a (ix2 u q) = -(a (ix2 u q)) * e (ix2 u q) := by
  show (Ideal.ofBits .f32 0x00000000#32 - a (ix2 u q)) * e (ix2 u q) = _
  rw [zero_word_sub]

theorem dAν_row : k0_pay19 (F := Ideal) (k0_pay6 ν) (k0_pay10 ν ϑ) (ix2 u q) = dAν (ν (ix1 q)) (ϑ (ix1 q)) := by
  rw [negmul_row19, rotA_row, growth_row]; rfl
theorem dBν_row : k0_pay20 (F := Ideal) (k0_pay6 ν) (k0_pay11 ν ϑ) (ix2 u q) = dBν (ν (ix1 q)) (ϑ (ix1 q)) := by
  rw [negmul_row20, rotB_row, growth_row]; rfl
theorem dgν_row : k0_pay21 (F := Ideal) (k0_pay6 ν) (k0_pay7 ν) (k0_pay9 ν) (ix2 u q) = dgν (ν (ix1 q)) := by
  show Ideal.div (k0_pay7 (F := Ideal) ν (ix2 u q) * k0_pay7 (F := Ideal) ν (ix2 u q) * k0_pay6 (F := Ideal) ν (ix2 u q))
    (k0_pay9 (F := Ideal) ν (ix2 u q)) = _
  rw [radius_row, growth_row, gain_row]; rfl
theorem dAθ_row : k0_pay22 (F := Ideal) (k0_pay8 ϑ) (k0_pay11 ν ϑ) (ix2 u q) = dAθ (ν (ix1 q)) (ϑ (ix1 q)) := by
  rw [negmul_row22, rotB_row, angle_row]; rfl
theorem dBθ_row : k0_pay23 (F := Ideal) (k0_pay8 ϑ) (k0_pay10 ν ϑ) (ix2 u q) = dBθ (ν (ix1 q)) (ϑ (ix1 q)) := by
  show k0_pay10 (F := Ideal) ν ϑ (ix2 u q) * k0_pay8 (F := Ideal) ϑ (ix2 u q) = _
  rw [rotA_row, angle_row]; rfl

end Lanes

/-! ## The input projections -/

/-- A block of `x · w`: the matrix unit's product of the two blocks into zero, entry `(p, q)`. -/
theorem proj13 (x : Vec Ideal S128x256 .f32) (w : Vec Ideal S256x128 .f32) (p q : Fin 128) :
    k0_pay13 (F := Ideal) x w (ix2 p q) = proj x w p q :=
  matmul_zero_plain 128 256 128 none (k0_pay12 (F := Ideal) x) (truncf .bf16 w bitsLt_bf16_f32) p q

theorem proj14 (x : Vec Ideal S128x256 .f32) (w : Vec Ideal S256x128 .f32) (p q : Fin 128) :
    k0_pay14 (F := Ideal) x w (ix2 p q) = proj x w p q :=
  matmul_zero_plain 128 256 128 none (k0_pay12 (F := Ideal) x) (truncf .bf16 w bitsLt_bf16_f32) p q

/-! ## The stored blocks -/

section Blocks

variable (x : Vec Ideal S128x256 .f32) (h1 h2 n1 n2 t1 t2 : Vec Ideal S128x128 .f32) (w1 w2 : Vec Ideal S256x128 .f32)
variable (ν ϑ : Vec Ideal S128 .f32) (p q : Fin 128)

/-- A `[1, 128]` row repeated down the block, at `(p, q)`. -/
theorem down (r : FVec Ideal S1x128 .f32) : broadcastTo S128x128 r broadcasts_S1x128_S128x128 (ix2 p q) = r (ix2 (0 : Fin 1) q) :=
  broadcastTo_1b_ab_apply r _ p q

theorem newH1_block :
    k0_pay17 (F := Ideal) (k0_pay9 ν) (k0_pay13 x w1) (k0_pay15 ν ϑ h1) (k0_pay16 ν ϑ h2) (ix2 p q)
      = hid1 (ν (ix1 q)) (ϑ (ix1 q)) (h1 (ix2 p q)) (h2 (ix2 p q)) (proj x w1 p q) := by
  show (broadcastTo S128x128 (k0_pay10 (F := Ideal) ν ϑ) broadcasts_S1x128_S128x128 (ix2 p q) * h1 (ix2 p q)
      - broadcastTo S128x128 (k0_pay11 (F := Ideal) ν ϑ) broadcasts_S1x128_S128x128 (ix2 p q) * h2 (ix2 p q))
      + broadcastTo S128x128 (k0_pay9 (F := Ideal) ν) broadcasts_S1x128_S128x128 (ix2 p q) * k0_pay13 (F := Ideal) x w1 (ix2 p q) = _
  rw [down, down, down, rotA_row, rotB_row, gain_row, proj13]
  rfl

theorem newH2_block :
    k0_pay18 (F := Ideal) (k0_pay9 ν) (k0_pay10 ν ϑ) (k0_pay11 ν ϑ) (k0_pay14 x w2) h1 h2 (ix2 p q)
      = hid2 (ν (ix1 q)) (ϑ (ix1 q)) (h1 (ix2 p q)) (h2 (ix2 p q)) (proj x w2 p q) := by
  show (broadcastTo S128x128 (k0_pay11 (F := Ideal) ν ϑ) broadcasts_S1x128_S128x128 (ix2 p q) * h1 (ix2 p q)
      + broadcastTo S128x128 (k0_pay10 (F := Ideal) ν ϑ) broadcasts_S1x128_S128x128 (ix2 p q) * h2 (ix2 p q))
      + broadcastTo S128x128 (k0_pay9 (F := Ideal) ν) broadcasts_S1x128_S128x128 (ix2 p q) * k0_pay14 (F := Ideal) x w2 (ix2 p q) = _
  rw [down, down, down, rotA_row, rotB_row, gain_row, proj14]
  rfl

theorem newN1_block :
    k0_pay24 (F := Ideal) (k0_pay6 ν) (k0_pay7 ν) (k0_pay9 ν) (k0_pay10 ν ϑ) (k0_pay11 ν ϑ) (k0_pay13 x w1) h1 h2 n1 n2 (ix2 p q)
      = trν1 (ν (ix1 q)) (ϑ (ix1 q)) (n1 (ix2 p q)) (n2 (ix2 p q)) (h1 (ix2 p q)) (h2 (ix2 p q)) (proj x w1 p q) := by
  show ((((broadcastTo S128x128 (k0_pay10 (F := Ideal) ν ϑ) broadcasts_S1x128_S128x128 (ix2 p q) * n1 (ix2 p q)
      - broadcastTo S128x128 (k0_pay11 (F := Ideal) ν ϑ) broadcasts_S1x128_S128x128 (ix2 p q) * n2 (ix2 p q))
      + broadcastTo S128x128 (k0_pay19 (F := Ideal) (k0_pay6 ν) (k0_pay10 ν ϑ)) broadcasts_S1x128_S128x128 (ix2 p q) * h1 (ix2 p q))
      - broadcastTo S128x128 (k0_pay20 (F := Ideal) (k0_pay6 ν) (k0_pay11 ν ϑ)) broadcasts_S1x128_S128x128 (ix2 p q) * h2 (ix2 p q))
      + broadcastTo S128x128 (k0_pay21 (F := Ideal) (k0_pay6 ν) (k0_pay7 ν) (k0_pay9 ν)) broadcasts_S1x128_S128x128 (ix2 p q)
          * k0_pay13 (F := Ideal) x w1 (ix2 p q)) = _
  rw [down, down, down, down, down, rotA_row, rotB_row, dAν_row, dBν_row, dgν_row, proj13]
  rfl

theorem newN2_block :
    k0_pay25 (F := Ideal) (k0_pay6 ν) (k0_pay7 ν) (k0_pay9 ν) (k0_pay10 ν ϑ) (k0_pay11 ν ϑ) (k0_pay14 x w2) h1 h2 n1 n2 (ix2 p q)
      = trν2 (ν (ix1 q)) (ϑ (ix1 q)) (n1 (ix2 p q)) (n2 (ix2 p q)) (h1 (ix2 p q)) (h2 (ix2 p q)) (proj x w2 p q) := by
  show ((((broadcastTo S128x128 (k0_pay11 (F := Ideal) ν ϑ) broadcasts_S1x128_S128x128 (ix2 p q) * n1 (ix2 p q)
      + broadcastTo S128x128 (k0_pay10 (F := Ideal) ν ϑ) broadcasts_S1x128_S128x128 (ix2 p q) * n2 (ix2 p q))
      + broadcastTo S128x128 (k0_pay20 (F := Ideal) (k0_pay6 ν) (k0_pay11 ν ϑ)) broadcasts_S1x128_S128x128 (ix2 p q) * h1 (ix2 p q))
      + broadcastTo S128x128 (k0_pay19 (F := Ideal) (k0_pay6 ν) (k0_pay10 ν ϑ)) broadcasts_S1x128_S128x128 (ix2 p q) * h2 (ix2 p q))
      + broadcastTo S128x128 (k0_pay21 (F := Ideal) (k0_pay6 ν) (k0_pay7 ν) (k0_pay9 ν)) broadcasts_S1x128_S128x128 (ix2 p q)
          * k0_pay14 (F := Ideal) x w2 (ix2 p q)) = _
  rw [down, down, down, down, down, rotA_row, rotB_row, dAν_row, dBν_row, dgν_row, proj14]
  rfl

theorem newT1_block :
    k0_pay1 (F := Ideal) h1 h2 (k0_pay22 (k0_pay8 ϑ) (k0_pay11 ν ϑ)) (k0_pay23 (k0_pay8 ϑ) (k0_pay10 ν ϑ))
        (k0_pay26 (k0_pay10 ν ϑ) t1) (k0_pay27 (k0_pay11 ν ϑ) t2) (ix2 p q)
      = trθ1 (ν (ix1 q)) (ϑ (ix1 q)) (t1 (ix2 p q)) (t2 (ix2 p q)) (h1 (ix2 p q)) (h2 (ix2 p q)) := by
  show ((broadcastTo S128x128 (k0_pay10 (F := Ideal) ν ϑ) broadcasts_S1x128_S128x128 (ix2 p q) * t1 (ix2 p q)
      - broadcastTo S128x128 (k0_pay11 (F := Ideal) ν ϑ) broadcasts_S1x128_S128x128 (ix2 p q) * t2 (ix2 p q))
      + broadcastTo S128x128 (k0_pay22 (F := Ideal) (k0_pay8 ϑ) (k0_pay11 ν ϑ)) broadcasts_S1x128_S128x128 (ix2 p q) * h1 (ix2 p q))
      - broadcastTo S128x128 (k0_pay23 (F := Ideal) (k0_pay8 ϑ) (k0_pay10 ν ϑ)) broadcasts_S1x128_S128x128 (ix2 p q) * h2 (ix2 p q) = _
  rw [down, down, down, down, rotA_row, rotB_row, dAθ_row, dBθ_row]
  rfl

theorem newT2_block :
    k0_pay2 (F := Ideal) (k0_pay10 ν ϑ) (k0_pay11 ν ϑ) h1 h2 t1 t2 (k0_pay22 (k0_pay8 ϑ) (k0_pay11 ν ϑ))
        (k0_pay23 (k0_pay8 ϑ) (k0_pay10 ν ϑ)) (ix2 p q)
      = trθ2 (ν (ix1 q)) (ϑ (ix1 q)) (t1 (ix2 p q)) (t2 (ix2 p q)) (h1 (ix2 p q)) (h2 (ix2 p q)) := by
  show ((broadcastTo S128x128 (k0_pay11 (F := Ideal) ν ϑ) broadcasts_S1x128_S128x128 (ix2 p q) * t1 (ix2 p q)
      + broadcastTo S128x128 (k0_pay10 (F := Ideal) ν ϑ) broadcasts_S1x128_S128x128 (ix2 p q) * t2 (ix2 p q))
      + broadcastTo S128x128 (k0_pay23 (F := Ideal) (k0_pay8 ϑ) (k0_pay10 ν ϑ)) broadcasts_S1x128_S128x128 (ix2 p q) * h1 (ix2 p q))
      + broadcastTo S128x128 (k0_pay22 (F := Ideal) (k0_pay8 ϑ) (k0_pay11 ν ϑ)) broadcasts_S1x128_S128x128 (ix2 p q) * h2 (ix2 p q) = _
  rw [down, down, down, down, rotA_row, rotB_row, dAθ_row, dBθ_row]
  rfl

/-- The three lane vectors handed to the second kernel: the row, laid back out as a vector. -/
theorem vecA_block : k0_pay3 (F := Ideal) (k0_pay10 ν ϑ) (ix1 q) = rotA (ν (ix1 q)) (ϑ (ix1 q)) := by
  unfold k0_pay3
  exact (shapeCast_1a_a_apply _ _ q).trans (rotA_row ν ϑ 0 q)
theorem vecB_block : k0_pay4 (F := Ideal) (k0_pay11 ν ϑ) (ix1 q) = rotB (ν (ix1 q)) (ϑ (ix1 q)) := by
  unfold k0_pay4
  exact (shapeCast_1a_a_apply _ _ q).trans (rotB_row ν ϑ 0 q)
theorem vecG_block : k0_pay5 (F := Ideal) (k0_pay9 ν) (ix1 q) = gain (ν (ix1 q)) := by
  unfold k0_pay5
  exact (shapeCast_1a_a_apply _ _ q).trans (gain_row ν 0 q)

end Blocks

end Cert.KernelIdeal.Small

end
-- ==== Proof.RegionSmall.lean ====
/-
  The first kernel's region, from any entry contents `V`: each of its nine result arrays after the region.

  The grid has four points; point `t` works on columns `128·t … 128·t + 127` of every `[128, 512]` array and of the two
  weight matrices, on lanes `128·t …` of the vectors, and on all of `x`.  So element `(p, q)` of a block is element
  `(p, 128·t + q)` of its array, the four column blocks cover the array, and what point `t` writes back is the block of
  the function of Spec.lean of the whole arrays: the array ends holding that function.
-/
import proofs.«155310_j53712861003855_2_alg».proof.Proof.Gen.KernelIdeal.Frame
import proofs.«155310_j53712861003855_2_alg».proof.Proof.PaySmall

set_option maxRecDepth 16384

noncomputable section

namespace Cert.KernelIdeal.Small

open Cert.KernelIdeal Cert.KernelIdeal.Gen Cert.Rtu
open Idealize.ShloMosaic Idealize.ShloMosaic.TcCoe Idealize.ShloMosaic.ValueIdx Idealize.SL.Sem
open Idealize.ShloMosaic.Pipeline (Dat Cfg Window)

theorem hz1 : (![0] : Fin 1 → Nat) = fun _ => 0 := funext fun a => by fin_cases a <;> rfl
theorem hz2 : (![0, 0] : Fin 2 → Nat) = fun _ => 0 := funext fun a => by fin_cases a <;> rfl

/-! ## Where a block sits in its array -/

theorem lt4 : ∀ t : Fin cfg0.N, t.val < 4 := (by decide +kernel : ∀ t : Fin grid0.N, t.val < 4)

/-- Column `q` of point `t`'s block is column `128·t + q` of the array. -/
def col (t : Fin cfg0.N) (q : Fin 128) : Fin 512 := ⟨t.val * 128 + q.val, by have := lt4 t; have := q.isLt; omega⟩

/-- The point that holds column `q`, and the column inside its block. -/
def pointOf (q : Fin 512) : Fin cfg0.N := ⟨q.val / 128, by
  show q.val / 128 < grid0.N
  rw [N_0]; have := q.isLt; omega⟩
def within (q : Fin 512) : Fin 128 := ⟨q.val % 128, Nat.mod_lt _ (by decide)⟩
theorem col_pointOf (q : Fin 512) : col (pointOf q) (within q) = q :=
  Fin.ext (by show q.val / 128 * 128 + q.val % 128 = q.val; omega)

/-- The printed index maps over the grid: `x` is always block `(0, 0)`; every other rank-2 window is at block `(0, t)`;
    every vector window at block `t`. -/
theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = t.val :=
  (by decide +kernel : ∀ t : Fin grid0.N, _)
theorem idx0_2 : ∀ t : Fin cfg0.N, win0_2.index t (0 : Fin 2) = 0 ∧ win0_2.index t (1 : Fin 2) = t.val :=
  (by decide +kernel : ∀ t : Fin grid0.N, _)
theorem idx0_3 : ∀ t : Fin cfg0.N, win0_3.index t (0 : Fin 2) = 0 ∧ win0_3.index t (1 : Fin 2) = t.val :=
  (by decide +kernel : ∀ t : Fin grid0.N, _)
theorem idx0_4 : ∀ t : Fin cfg0.N, win0_4.index t (0 : Fin 2) = 0 ∧ win0_4.index t (1 : Fin 2) = t.val :=
  (by decide +kernel : ∀ t : Fin grid0.N, _)
theorem idx0_5 : ∀ t : Fin cfg0.N, win0_5.index t (0 : Fin 2) = 0 ∧ win0_5.index t (1 : Fin 2) = t.val :=
  (by decide +kernel : ∀ t : Fin grid0.N, _)
theorem idx0_6 : ∀ t : Fin cfg0.N, win0_6.index t (0 : Fin 2) = 0 ∧ win0_6.index t (1 : Fin 2) = t.val :=
  (by decide +kernel : ∀ t : Fin grid0.N, _)
theorem idx0_7 : ∀ t : Fin cfg0.N, win0_7.index t (0 : Fin 2) = 0 ∧ win0_7.index t (1 : Fin 2) = t.val :=
  (by decide +kernel : ∀ t : Fin grid0.N, _)
theorem idx0_8 : ∀ t : Fin cfg0.N, win0_8.index t (0 : Fin 2) = 0 ∧ win0_8.index t (1 : Fin 2) = t.val :=
  (by decide +kernel : ∀ t : Fin grid0.N, _)
theorem idx0_11 : ∀ t : Fin cfg0.N, win0_11.index t (0 : Fin 2) = 0 ∧ win0_11.index t (1 : Fin 2) = t.val :=
  (by decide +kernel : ∀ t : Fin grid0.N, _)
theorem idx0_12 : ∀ t : Fin cfg0.N, win0_12.index t (0 : Fin 2) = 0 ∧ win0_12.index t (1 : Fin 2) = t.val :=
  (by decide +kernel : ∀ t : Fin grid0.N, _)
theorem idx0_13 : ∀ t : Fin cfg0.N, win0_13.index t (0 : Fin 2) = 0 ∧ win0_13.index t (1 : Fin 2) = t.val :=
  (by decide +kernel : ∀ t : Fin grid0.N, _)
theorem idx0_14 : ∀ t : Fin cfg0.N, win0_14.index t (0 : Fin 2) = 0 ∧ win0_14.index t (1 : Fin 2) = t.val :=
  (by decide +kernel : ∀ t : Fin grid0.N, _)
theorem idx0_15 : ∀ t : Fin cfg0.N, win0_15.index t (0 : Fin 2) = 0 ∧ win0_15.index t (1 : Fin 2) = t.val :=
  (by decide +kernel : ∀ t : Fin grid0.N, _)
theorem idx0_16 : ∀ t : Fin cfg0.N, win0_16.index t (0 : Fin 2) = 0 ∧ win0_16.index t (1 : Fin 2) = t.val :=
  (by decide +kernel : ∀ t : Fin grid0.N, _)
theorem idx0_9 : ∀ t : Fin cfg0.N, win0_9.index t (0 : Fin 1) = t.val :=
  (by decide +kernel : ∀ t : Fin grid0.N, _)
theorem idx0_10 : ∀ t : Fin cfg0.N, win0_10.index t (0 : Fin 1) = t.val :=
  (by decide +kernel : ∀ t : Fin grid0.N, _)
theorem idx0_17 : ∀ t : Fin cfg0.N, win0_17.index t (0 : Fin 1) = t.val :=
  (by decide +kernel : ∀ t : Fin grid0.N, _)
theorem idx0_18 : ∀ t : Fin cfg0.N, win0_18.index t (0 : Fin 1) = t.val :=
  (by decide +kernel : ∀ t : Fin grid0.N, _)
theorem idx0_19 : ∀ t : Fin cfg0.N, win0_19.index t (0 : Fin 1) = t.val :=
  (by decide +kernel : ∀ t : Fin grid0.N, _)

section Place

variable (V : (c : Dev nD) → (b : Ref sig .tc) → Buf (Elt Ideal) ((c : Thread nD τ).loc b)) (c : Dev nD)
variable (t : Fin cfg0.N)

set_option hygiene false in
/-- A block's element at `(p, q)` on a column-blocked window of `R` rows: the array's `(p, 128·t + q)`. -/
local macro "cols_at" w:ident R:num : tactic => `(tactic| (
  refine funext fun a => Fin.ext ?_
  match a with
  | ⟨0, _⟩ => (show ($w).index t (0 : Fin 2) * $R + 1 * p.val = p.val; omega)
  | ⟨1, _⟩ => (show ($w).index t (1 : Fin 2) * 128 + 1 * q.val = t.val * 128 + q.val; omega)))

set_option hygiene false in
/-- A block's element at `q` on a lane-blocked vector window: the vector's `128·t + q`. -/
local macro "lanes_at" w:ident : tactic => `(tactic| (
  refine funext fun a => Fin.ext ?_
  match a with
  | ⟨0, _⟩ => (show ($w).index t (0 : Fin 1) * 128 + 1 * q.val = t.val * 128 + q.val; omega)))

theorem emb0_0 (p : Fin 128) (k : Fin 256) : ((cfg0.win 0).blk t).view.emb (ix2 p k) = ix2 p k := by
  obtain ⟨e0, e1⟩ := idx0_0 t
  refine funext fun a => Fin.ext ?_
  match a with
  | ⟨0, _⟩ => show win0_0.index t (0 : Fin 2) * 128 + 1 * p.val = p.val; omega
  | ⟨1, _⟩ => show win0_0.index t (1 : Fin 2) * 256 + 1 * k.val = k.val; omega

section
variable (p q : Fin 128)
theorem emb0_1 : ((cfg0.win 1).blk t).view.emb (ix2 p q) = ix2 p (col t q) := by obtain ⟨e0, e1⟩ := idx0_1 t; cols_at win0_1 128
theorem emb0_2 : ((cfg0.win 2).blk t).view.emb (ix2 p q) = ix2 p (col t q) := by obtain ⟨e0, e1⟩ := idx0_2 t; cols_at win0_2 128
theorem emb0_3 : ((cfg0.win 3).blk t).view.emb (ix2 p q) = ix2 p (col t q) := by obtain ⟨e0, e1⟩ := idx0_3 t; cols_at win0_3 128
theorem emb0_4 : ((cfg0.win 4).blk t).view.emb (ix2 p q) = ix2 p (col t q) := by obtain ⟨e0, e1⟩ := idx0_4 t; cols_at win0_4 128
theorem emb0_5 : ((cfg0.win 5).blk t).view.emb (ix2 p q) = ix2 p (col t q) := by obtain ⟨e0, e1⟩ := idx0_5 t; cols_at win0_5 128
theorem emb0_6 : ((cfg0.win 6).blk t).view.emb (ix2 p q) = ix2 p (col t q) := by obtain ⟨e0, e1⟩ := idx0_6 t; cols_at win0_6 128
theorem emb0_11 : ((cfg0.win 11).blk t).view.emb (ix2 p q) = ix2 p (col t q) := by obtain ⟨e0, e1⟩ := idx0_11 t; cols_at win0_11 128
theorem emb0_12 : ((cfg0.win 12).blk t).view.emb (ix2 p q) = ix2 p (col t q) := by obtain ⟨e0, e1⟩ := idx0_12 t; cols_at win0_12 128
theorem emb0_13 : ((cfg0.win 13).blk t).view.emb (ix2 p q) = ix2 p (col t q) := by obtain ⟨e0, e1⟩ := idx0_13 t; cols_at win0_13 128
theorem emb0_14 : ((cfg0.win 14).blk t).view.emb (ix2 p q) = ix2 p (col t q) := by obtain ⟨e0, e1⟩ := idx0_14 t; cols_at win0_14 128
theorem emb0_15 : ((cfg0.win 15).blk t).view.emb (ix2 p q) = ix2 p (col t q) := by obtain ⟨e0, e1⟩ := idx0_15 t; cols_at win0_15 128
theorem emb0_16 : ((cfg0.win 16).blk t).view.emb (ix2 p q) = ix2 p (col t q) := by obtain ⟨e0, e1⟩ := idx0_16 t; cols_at win0_16 128
theorem emb0_9 : ((cfg0.win 9).blk t).view.emb (ix1 q) = ix1 (col t q) := by have e0 := idx0_9 t; lanes_at win0_9
theorem emb0_10 : ((cfg0.win 10).blk t).view.emb (ix1 q) = ix1 (col t q) := by have e0 := idx0_10 t; lanes_at win0_10
theorem emb0_17 : ((cfg0.win 17).blk t).view.emb (ix1 q) = ix1 (col t q) := by have e0 := idx0_17 t; lanes_at win0_17
theorem emb0_18 : ((cfg0.win 18).blk t).view.emb (ix1 q) = ix1 (col t q) := by have e0 := idx0_18 t; lanes_at win0_18
theorem emb0_19 : ((cfg0.win 19).blk t).view.emb (ix1 q) = ix1 (col t q) := by have e0 := idx0_19 t; lanes_at win0_19
end

section
variable (p : Fin 256) (q : Fin 128)
theorem emb0_7 : ((cfg0.win 7).blk t).view.emb (ix2 p q) = ix2 p (col t q) := by obtain ⟨e0, e1⟩ := idx0_7 t; cols_at win0_7 256
theorem emb0_8 : ((cfg0.win 8).blk t).view.emb (ix2 p q) = ix2 p (col t q) := by obtain ⟨e0, e1⟩ := idx0_8 t; cols_at win0_8 256
end

/-! ## The input blocks, read where they sit -/

theorem read0_0 (p : Fin 128) (k : Fin 256) : iblk0 V c 0 t (ix2 p k) = V c main_arg0 (ix2 p k) := by
  show V c main_arg0 (((cfg0.win 0).blk t).view.emb (ix2 p k)) = _
  rw [emb0_0]
theorem read0_1 (p q : Fin 128) : iblk0 V c 1 t (ix2 p q) = V c main_arg1 (ix2 p (col t q)) := by
  show V c main_arg1 (((cfg0.win 1).blk t).view.emb (ix2 p q)) = _
  rw [emb0_1]
theorem read0_2 (p q : Fin 128) : iblk0 V c 2 t (ix2 p q) = V c main_arg2 (ix2 p (col t q)) := by
  show V c main_arg2 (((cfg0.win 2).blk t).view.emb (ix2 p q)) = _
  rw [emb0_2]
theorem read0_3 (p q : Fin 128) : iblk0 V c 3 t (ix2 p q) = V c main_arg3 (ix2 p (col t q)) := by
  show V c main_arg3 (((cfg0.win 3).blk t).view.emb (ix2 p q)) = _
  rw [emb0_3]
theorem read0_4 (p q : Fin 128) : iblk0 V c 4 t (ix2 p q) = V c main_arg4 (ix2 p (col t q)) := by
  show V c main_arg4 (((cfg0.win 4).blk t).view.emb (ix2 p q)) = _
  rw [emb0_4]
theorem read0_5 (p q : Fin 128) : iblk0 V c 5 t (ix2 p q) = V c main_arg5 (ix2 p (col t q)) := by
  show V c main_arg5 (((cfg0.win 5).blk t).view.emb (ix2 p q)) = _
  rw [emb0_5]
theorem read0_6 (p q : Fin 128) : iblk0 V c 6 t (ix2 p q) = V c main_arg6 (ix2 p (col t q)) := by
  show V c main_arg6 (((cfg0.win 6).blk t).view.emb (ix2 p q)) = _
  rw [emb0_6]
theorem read0_7 (k : Fin 256) (q : Fin 128) : iblk0 V c 7 t (ix2 k q) = V c main_arg11 (ix2 k (col t q)) := by
  show V c main_arg11 (((cfg0.win 7).blk t).view.emb (ix2 k q)) = _
  rw [emb0_7]
theorem read0_8 (k : Fin 256) (q : Fin 128) : iblk0 V c 8 t (ix2 k q) = V c main_arg12 (ix2 k (col t q)) := by
  show V c main_arg12 (((cfg0.win 8).blk t).view.emb (ix2 k q)) = _
  rw [emb0_8]
theorem read0_9 (q : Fin 128) : iblk0 V c 9 t (ix1 q) = V c main_arg13 (ix1 (col t q)) := by
  show V c main_arg13 (((cfg0.win 9).blk t).view.emb (ix1 q)) = _
  rw [emb0_9]
theorem read0_10 (q : Fin 128) : iblk0 V c 10 t (ix1 q) = V c main_arg14 (ix1 (col t q)) := by
  show V c main_arg14 (((cfg0.win 10).blk t).view.emb (ix1 q)) = _
  rw [emb0_10]

/-- A block of an input projection is the projection's block: the product runs over all of `x`'s columns and the
    weight block's own column. -/
theorem proj_read1 (p q : Fin 128) :
    proj (iblk0 V c 0 t) (iblk0 V c 7 t) p q = proj (V c main_arg0) (V c main_arg11) p (col t q) :=
  Finset.sum_congr rfl fun k _ => by rw [read0_0, read0_7]
theorem proj_read2 (p q : Fin 128) :
    proj (iblk0 V c 0 t) (iblk0 V c 8 t) p q = proj (V c main_arg0) (V c main_arg12) p (col t q) :=
  Finset.sum_congr rfl fun k _ => by rw [read0_0, read0_8]

end Place

/-! ## What a point writes back, the cover, and the arrays after the region -/

section After

variable (V : (c : Dev nD) → (b : Ref sig .tc) → Buf (Elt Ideal) ((c : Thread nD τ).loc b)) (c : Dev nD)

/-- Opens `flushed w t` down to the body's payload term on the point's input blocks. -/
local macro "open_block" aft:ident out:ident : tactic => `(tactic| (
  rw [$aft:ident]
  unfold $out:ident
  rw [View.canon_unit_zero hz2]
  simp only [View.ld_unit_zero (S := S128) hz1, View.ld_unit_zero (S := S128x256) hz2,
    View.ld_unit_zero (S := S256x128) hz2, View.ld_unit_zero (S := S128x128) hz2]))

local macro "open_lane_block" aft:ident out:ident : tactic => `(tactic| (
  rw [$aft:ident]
  unfold $out:ident
  rw [View.canon_unit_zero hz1]
  simp only [View.ld_unit_zero (S := S128) hz1]))

theorem flushed0_11 (t : Fin cfg0.N) : (dat0 V c).flushed 11 t = ((cfg0.win 11).blk t).view.read (Elt Ideal)
    (newH1 (V c main_arg0) (V c main_arg11) (V c main_arg13) (V c main_arg14) (V c main_arg1) (V c main_arg2)) := by
  show (cfg0.win 11).cut (grid0.coords t) ((dat0 V c).after 11 t) = _
  open_block after0_11 out0_11
  funext y
  obtain ⟨p, q, rfl⟩ : ∃ (p q : Fin 128), y = ix2 p q := ⟨y 0, y 1, eq_ix2 y⟩
  show _ = newH1 (V c main_arg0) (V c main_arg11) (V c main_arg13) (V c main_arg14) (V c main_arg1) (V c main_arg2)
    (((cfg0.win 11).blk t).view.emb (ix2 p q))
  rw [emb0_11]
  refine (newH1_block (iblk0 V c 0 t) (iblk0 V c 1 t) (iblk0 V c 2 t) (iblk0 V c 7 t) (iblk0 V c 9 t) (iblk0 V c 10 t) p q).trans ?_
  rw [read0_9, read0_10, read0_1, read0_2, proj_read1]
  rfl

theorem flushed0_12 (t : Fin cfg0.N) : (dat0 V c).flushed 12 t = ((cfg0.win 12).blk t).view.read (Elt Ideal)
    (newH2 (V c main_arg0) (V c main_arg12) (V c main_arg13) (V c main_arg14) (V c main_arg1) (V c main_arg2)) := by
  show (cfg0.win 12).cut (grid0.coords t) ((dat0 V c).after 12 t) = _
  open_block after0_12 out0_12
  funext y
  obtain ⟨p, q, rfl⟩ : ∃ (p q : Fin 128), y = ix2 p q := ⟨y 0, y 1, eq_ix2 y⟩
  show _ = newH2 (V c main_arg0) (V c main_arg12) (V c main_arg13) (V c main_arg14) (V c main_arg1) (V c main_arg2)
    (((cfg0.win 12).blk t).view.emb (ix2 p q))
  rw [emb0_12]
  refine (newH2_block (iblk0 V c 0 t) (iblk0 V c 1 t) (iblk0 V c 2 t) (iblk0 V c 8 t) (iblk0 V c 9 t) (iblk0 V c 10 t) p q).trans ?_
  rw [read0_9, read0_10, read0_1, read0_2, proj_read2]
  rfl

theorem flushed0_13 (t : Fin cfg0.N) : (dat0 V c).flushed 13 t = ((cfg0.win 13).blk t).view.read (Elt Ideal)
    (newN1 (V c main_arg0) (V c main_arg11) (V c main_arg13) (V c main_arg14) (V c main_arg1) (V c main_arg2)
      (V c main_arg3) (V c main_arg4)) := by
  show (cfg0.win 13).cut (grid0.coords t) ((dat0 V c).after 13 t) = _
  open_block after0_13 out0_13
  funext y
  obtain ⟨p, q, rfl⟩ : ∃ (p q : Fin 128), y = ix2 p q := ⟨y 0, y 1, eq_ix2 y⟩
  show _ = newN1 (V c main_arg0) (V c main_arg11) (V c main_arg13) (V c main_arg14) (V c main_arg1) (V c main_arg2)
    (V c main_arg3) (V c main_arg4) (((cfg0.win 13).blk t).view.emb (ix2 p q))
  rw [emb0_13]
  refine (newN1_block (iblk0 V c 0 t) (iblk0 V c 1 t) (iblk0 V c 2 t) (iblk0 V c 3 t) (iblk0 V c 4 t) (iblk0 V c 7 t)
    (iblk0 V c 9 t) (iblk0 V c 10 t) p q).trans ?_
  rw [read0_9, read0_10, read0_1, read0_2, read0_3, read0_4, proj_read1]
  rfl

theorem flushed0_14 (t : Fin cfg0.N) : (dat0 V c).flushed 14 t = ((cfg0.win 14).blk t).view.read (Elt Ideal)
    (newN2 (V c main_arg0) (V c main_arg12) (V c main_arg13) (V c main_arg14) (V c main_arg1) (V c main_arg2)
      (V c main_arg3) (V c main_arg4)) := by
  show (cfg0.win 14).cut (grid0.coords t) ((dat0 V c).after 14 t) = _
  open_block after0_14 out0_14
  funext y
  obtain ⟨p, q, rfl⟩ : ∃ (p q : Fin 128), y = ix2 p q := ⟨y 0, y 1, eq_ix2 y⟩
  show _ = newN2 (V c main_arg0) (V c main_arg12) (V c main_arg13) (V c main_arg14) (V c main_arg1) (V c main_arg2)
    (V c main_arg3) (V c main_arg4) (((cfg0.win 14).blk t).view.emb (ix2 p q))
  rw [emb0_14]
  refine (newN2_block (iblk0 V c 0 t) (iblk0 V c 1 t) (iblk0 V c 2 t) (iblk0 V c 3 t) (iblk0 V c 4 t) (iblk0 V c 8 t)
    (iblk0 V c 9 t) (iblk0 V c 10 t) p q).trans ?_
  rw [read0_9, read0_10, read0_1, read0_2, read0_3, read0_4, proj_read2]
  rfl

theorem flushed0_15 (t : Fin cfg0.N) : (dat0 V c).flushed 15 t = ((cfg0.win 15).blk t).view.read (Elt Ideal)
    (newT1 (V c main_arg13) (V c main_arg14) (V c main_arg1) (V c main_arg2) (V c main_arg5) (V c main_arg6)) := by
  show (cfg0.win 15).cut (grid0.coords t) ((dat0 V c).after 15 t) = _
  open_block after0_15 out0_15
  funext y
  obtain ⟨p, q, rfl⟩ : ∃ (p q : Fin 128), y = ix2 p q := ⟨y 0, y 1, eq_ix2 y⟩
  show _ = newT1 (V c main_arg13) (V c main_arg14) (V c main_arg1) (V c main_arg2) (V c main_arg5) (V c main_arg6)
    (((cfg0.win 15).blk t).view.emb (ix2 p q))
  rw [emb0_15]
  refine (newT1_block (iblk0 V c 1 t) (iblk0 V c 2 t) (iblk0 V c 5 t) (iblk0 V c 6 t) (iblk0 V c 9 t) (iblk0 V c 10 t) p q).trans ?_
  rw [read0_9, read0_10, read0_1, read0_2, read0_5, read0_6]
  rfl

theorem flushed0_16 (t : Fin cfg0.N) : (dat0 V c).flushed 16 t = ((cfg0.win 16).blk t).view.read (Elt Ideal)
    (newT2 (V c main_arg13) (V c main_arg14) (V c main_arg1) (V c main_arg2) (V c main_arg5) (V c main_arg6)) := by
  show (cfg0.win 16).cut (grid0.coords t) ((dat0 V c).after 16 t) = _
  open_block after0_16 out0_16
  funext y
  obtain ⟨p, q, rfl⟩ : ∃ (p q : Fin 128), y = ix2 p q := ⟨y 0, y 1, eq_ix2 y⟩
  show _ = newT2 (V c main_arg13) (V c main_arg14) (V c main_arg1) (V c main_arg2) (V c main_arg5) (V c main_arg6)
    (((cfg0.win 16).blk t).view.emb (ix2 p q))
  rw [emb0_16]
  refine (newT2_block (iblk0 V c 1 t) (iblk0 V c 2 t) (iblk0 V c 5 t) (iblk0 V c 6 t) (iblk0 V c 9 t) (iblk0 V c 10 t) p q).trans ?_
  rw [read0_9, read0_10, read0_1, read0_2, read0_5, read0_6]
  rfl

theorem flushed0_17 (t : Fin cfg0.N) : (dat0 V c).flushed 17 t = ((cfg0.win 17).blk t).view.read (Elt Ideal)
    (vecA (V c main_arg13) (V c main_arg14)) := by
  show (cfg0.win 17).cut (grid0.coords t) ((dat0 V c).after 17 t) = _
  open_lane_block after0_17 out0_17
  funext y
  obtain ⟨q, rfl⟩ : ∃ (q : Fin 128), y = ix1 q := ⟨y 0, eq_ix1 y⟩
  show _ = vecA (V c main_arg13) (V c main_arg14) (((cfg0.win 17).blk t).view.emb (ix1 q))
  rw [emb0_17]
  refine (vecA_block (iblk0 V c 9 t) (iblk0 V c 10 t) q).trans ?_
  rw [read0_9, read0_10]
  rfl

theorem flushed0_18 (t : Fin cfg0.N) : (dat0 V c).flushed 18 t = ((cfg0.win 18).blk t).view.read (Elt Ideal)
    (vecB (V c main_arg13) (V c main_arg14)) := by
  show (cfg0.win 18).cut (grid0.coords t) ((dat0 V c).after 18 t) = _
  open_lane_block after0_18 out0_18
  funext y
  obtain ⟨q, rfl⟩ : ∃ (q : Fin 128), y = ix1 q := ⟨y 0, eq_ix1 y⟩
  show _ = vecB (V c main_arg13) (V c main_arg14) (((cfg0.win 18).blk t).view.emb (ix1 q))
  rw [emb0_18]
  refine (vecB_block (iblk0 V c 9 t) (iblk0 V c 10 t) q).trans ?_
  rw [read0_9, read0_10]
  rfl

theorem flushed0_19 (t : Fin cfg0.N) : (dat0 V c).flushed 19 t = ((cfg0.win 19).blk t).view.read (Elt Ideal)
    (vecG (V c main_arg13)) := by
  show (cfg0.win 19).cut (grid0.coords t) ((dat0 V c).after 19 t) = _
  open_lane_block after0_19 out0_19
  funext y
  obtain ⟨q, rfl⟩ : ∃ (q : Fin 128), y = ix1 q := ⟨y 0, eq_ix1 y⟩
  show _ = vecG (V c main_arg13) (((cfg0.win 19).blk t).view.emb (ix1 q))
  rw [emb0_19]
  refine (vecG_block (iblk0 V c 9 t) q).trans ?_
  rw [read0_9]
  rfl

set_option hygiene false in
/-- The four column blocks cover a `[128, 512]` array: column `q` lies in point `q / 128`'s block. -/
local macro "cover_cols" fl:ident em:ident w:num : tactic => `(tactic| (
  intro i
  obtain ⟨p, q, rfl⟩ : ∃ (p : Fin 128) (q : Fin 512), i = ix2 p q := ⟨i 0, i 1, eq_ix2 i⟩
  refine ⟨pointOf q, $fl:ident _, ?_⟩
  have h := ((cfg0.win $w).blk (pointOf q)).view.emb_mem_set (ix2 p (within q))
  rwa [$em:ident, col_pointOf] at h))

set_option hygiene false in
local macro "cover_lanes" fl:ident em:ident w:num : tactic => `(tactic| (
  intro i
  obtain ⟨q, rfl⟩ : ∃ (q : Fin 512), i = ix1 q := ⟨i 0, eq_ix1 i⟩
  refine ⟨pointOf q, $fl:ident _, ?_⟩
  have h := ((cfg0.win $w).blk (pointOf q)).view.emb_mem_set (ix1 (within q))
  rwa [$em:ident, col_pointOf] at h))

theorem final0_11 : (dat0 V c).arrAt 11 cfg0.N
    = newH1 (V c main_arg0) (V c main_arg11) (V c main_arg13) (V c main_arg14) (V c main_arg1) (V c main_arg2) :=
  (dat0 V c).arrAt_eq_of_cover 11 _ (fun t _ => flushed0_11 V c t) (by cover_cols flush0_11 emb0_11 11)
theorem final0_12 : (dat0 V c).arrAt 12 cfg0.N
    = newH2 (V c main_arg0) (V c main_arg12) (V c main_arg13) (V c main_arg14) (V c main_arg1) (V c main_arg2) :=
  (dat0 V c).arrAt_eq_of_cover 12 _ (fun t _ => flushed0_12 V c t) (by cover_cols flush0_12 emb0_12 12)
theorem final0_13 : (dat0 V c).arrAt 13 cfg0.N
    = newN1 (V c main_arg0) (V c main_arg11) (V c main_arg13) (V c main_arg14) (V c main_arg1) (V c main_arg2)
        (V c main_arg3) (V c main_arg4) :=
  (dat0 V c).arrAt_eq_of_cover 13 _ (fun t _ => flushed0_13 V c t) (by cover_cols flush0_13 emb0_13 13)
theorem final0_14 : (dat0 V c).arrAt 14 cfg0.N
    = newN2 (V c main_arg0) (V c main_arg12) (V c main_arg13) (V c main_arg14) (V c main_arg1) (V c main_arg2)
        (V c main_arg3) (V c main_arg4) :=
  (dat0 V c).arrAt_eq_of_cover 14 _ (fun t _ => flushed0_14 V c t) (by cover_cols flush0_14 emb0_14 14)
theorem final0_15 : (dat0 V c).arrAt 15 cfg0.N
    = newT1 (V c main_arg13) (V c main_arg14) (V c main_arg1) (V c main_arg2) (V c main_arg5) (V c main_arg6) :=
  (dat0 V c).arrAt_eq_of_cover 15 _ (fun t _ => flushed0_15 V c t) (by cover_cols flush0_15 emb0_15 15)
theorem final0_16 : (dat0 V c).arrAt 16 cfg0.N
    = newT2 (V c main_arg13) (V c main_arg14) (V c main_arg1) (V c main_arg2) (V c main_arg5) (V c main_arg6) :=
  (dat0 V c).arrAt_eq_of_cover 16 _ (fun t _ => flushed0_16 V c t) (by cover_cols flush0_16 emb0_16 16)
theorem final0_17 : (dat0 V c).arrAt 17 cfg0.N = vecA (V c main_arg13) (V c main_arg14) :=
  (dat0 V c).arrAt_eq_of_cover 17 _ (fun t _ => flushed0_17 V c t) (by cover_lanes flush0_17 emb0_17 17)
theorem final0_18 : (dat0 V c).arrAt 18 cfg0.N = vecB (V c main_arg13) (V c main_arg14) :=
  (dat0 V c).arrAt_eq_of_cover 18 _ (fun t _ => flushed0_18 V c t) (by cover_lanes flush0_18 emb0_18 18)
theorem final0_19 : (dat0 V c).arrAt 19 cfg0.N = vecG (V c main_arg13) :=
  (dat0 V c).arrAt_eq_of_cover 19 _ (fun t _ => flushed0_19 V c t) (by cover_lanes flush0_19 emb0_19 19)

end After

end Cert.KernelIdeal.Small

end
-- ==== Proof.PayBig.lean ====
/-
  The second kernel's arithmetic, read at an entry of a block on the extended reals.

  One grid point sees two rows of each `[128, 256, 512]` trace, the same two rows of `x` as a `[2, 256, 1]` block, and the
  three lane vectors `a`, `b`, `g` whole.  Each lane vector is laid out as a `[1, 1, 512]` line and repeated over the
  block; `x` is repeated along the lanes.  Each stored block is the rotation of a pair of traces by `(a, b)`, two of the
  four with the direct term `g · x` added.
-/
import proofs.«155310_j53712861003855_2_alg».proof.Proof.Gen.KernelIdeal.Skeleton
import proofs.«155310_j53712861003855_2_alg».proof.Proof.LibLaneLayout

noncomputable section

namespace Cert.KernelIdeal.Big

open Cert.KernelIdeal Cert.KernelIdeal.Gen Cert.LaneLayout
open Idealize.ShloMosaic Idealize.ShloMosaic.ValueIdx

variable (m1 m2 : Vec Ideal S2x256x512 .f32) (xb : Vec Ideal S2x256x1 .f32) (a b g : Vec Ideal S512 .f32)
variable (s : Fin 2) (d : Fin 256) (q : Fin 512)

/-- A lane vector laid out as a `[1, 1, 512]` line, at lane `q`. -/
theorem line3 (v : Vec Ideal S512 .f32) : k1_pay3 (F := Ideal) v (ix3 (0 : Fin 1) (0 : Fin 1) q) = v (ix1 q) := by
  unfold k1_pay3
  exact (shapeCast_c_11c_apply _ _ 0 0 q).trans (congrFun (shapeCast_self v _) (ix1 q))

theorem line4 (v : Vec Ideal S512 .f32) : k1_pay4 (F := Ideal) v (ix3 (0 : Fin 1) (0 : Fin 1) q) = v (ix1 q) := by
  unfold k1_pay4
  exact (shapeCast_c_11c_apply _ _ 0 0 q).trans (congrFun (shapeCast_self v _) (ix1 q))

/-- A `[1, 1, 512]` line repeated over the block, at `(s, d, q)`. -/
theorem over (r : FVec Ideal S1x1x512 .f32) :
    broadcastTo S2x256x512 r broadcasts_S1x1x512_S2x256x512 (ix3 s d q) = r (ix3 (0 : Fin 1) (0 : Fin 1) q) :=
  broadcastTo_11c_abc_apply r _ s d q

/-- The direct term `g · x` of the block. -/
theorem gx_block : k1_pay5 (F := Ideal) g xb (ix3 s d q) = g (ix1 q) * xb (ix3 s d (0 : Fin 1)) := by
  show broadcastTo S2x256x512 (shapeCast S1x1x512 (shapeCast S512 g shapeCasts_S512_S512) shapeCasts_S512_S1x1x512)
        broadcasts_S1x1x512_S2x256x512 (ix3 s d q)
      * broadcastTo S2x256x512 (shapeCast S2x256x1 xb shapeCasts_S2x256x1_S2x256x1) broadcasts_S2x256x1_S2x256x512 (ix3 s d q) = _
  rw [broadcastTo_11c_abc_apply, broadcastTo_ab1_abc_apply, shapeCast_c_11c_apply, shapeCast_self, shapeCast_self]

theorem w11_block :
    k1_pay6 (F := Ideal) a b g xb m1 m2 (ix3 s d q)
      = (a (ix1 q) * m1 (ix3 s d q) - b (ix1 q) * m2 (ix3 s d q)) + g (ix1 q) * xb (ix3 s d (0 : Fin 1)) := by
  show (broadcastTo S2x256x512 (k1_pay3 (F := Ideal) a) broadcasts_S1x1x512_S2x256x512 (ix3 s d q) * m1 (ix3 s d q)
      - broadcastTo S2x256x512 (k1_pay4 (F := Ideal) b) broadcasts_S1x1x512_S2x256x512 (ix3 s d q) * m2 (ix3 s d q))
      + k1_pay5 (F := Ideal) g xb (ix3 s d q) = _
  rw [over, over, line3, line4, gx_block]

theorem w12_block :
    k1_pay7 (F := Ideal) a b m1 m2 (ix3 s d q) = b (ix1 q) * m1 (ix3 s d q) + a (ix1 q) * m2 (ix3 s d q) := by
  show broadcastTo S2x256x512 (k1_pay4 (F := Ideal) b) broadcasts_S1x1x512_S2x256x512 (ix3 s d q) * m1 (ix3 s d q)
      + broadcastTo S2x256x512 (k1_pay3 (F := Ideal) a) broadcasts_S1x1x512_S2x256x512 (ix3 s d q) * m2 (ix3 s d q) = _
  rw [over, over, line3, line4]

theorem w21_block :
    k1_pay1 (F := Ideal) (k1_pay4 b) m2 (k1_pay8 a m1) (ix3 s d q) = a (ix1 q) * m1 (ix3 s d q) - b (ix1 q) * m2 (ix3 s d q) := by
  show broadcastTo S2x256x512 (k1_pay3 (F := Ideal) a) broadcasts_S1x1x512_S2x256x512 (ix3 s d q) * m1 (ix3 s d q)
      - broadcastTo S2x256x512 (k1_pay4 (F := Ideal) b) broadcasts_S1x1x512_S2x256x512 (ix3 s d q) * m2 (ix3 s d q) = _
  rw [over, over, line3, line4]

theorem w22_block :
    k1_pay2 (F := Ideal) (k1_pay3 a) (k1_pay4 b) (k1_pay5 g xb) m1 m2 (ix3 s d q)
      = (b (ix1 q) * m1 (ix3 s d q) + a (ix1 q) * m2 (ix3 s d q)) + g (ix1 q) * xb (ix3 s d (0 : Fin 1)) := by
  show (broadcastTo S2x256x512 (k1_pay4 (F := Ideal) b) broadcasts_S1x1x512_S2x256x512 (ix3 s d q) * m1 (ix3 s d q)
      + broadcastTo S2x256x512 (k1_pay3 (F := Ideal) a) broadcasts_S1x1x512_S2x256x512 (ix3 s d q) * m2 (ix3 s d q))
      + k1_pay5 (F := Ideal) g xb (ix3 s d q) = _
  rw [over, over, line3, line4, gx_block]

end Cert.KernelIdeal.Big

end
-- ==== Proof.RegionBig.lean ====
/-
  The second kernel's region, from any entry contents `V`: each of its four result arrays after the region.

  The grid has 64 points; point `t` works on rows `2·t` and `2·t + 1` of every `[128, 256, 512]` trace and of `x` (held
  with a last unit axis), and on the three lane vectors whole.  So element `(s, d, q)` of a block is element
  `(2·t + s, d, q)` of its array, the 64 row pairs cover the array, and what point `t` writes back is the block of the
  rotation of Spec.lean by the given vectors: the array ends holding that rotation.
-/
import proofs.«155310_j53712861003855_2_alg».proof.Proof.Gen.KernelIdeal.Frame
import proofs.«155310_j53712861003855_2_alg».proof.Proof.PayBig
import proofs.«155310_j53712861003855_2_alg».proof.Proof.Spec

set_option maxRecDepth 16384

noncomputable section

namespace Cert.KernelIdeal.Big

open Cert.KernelIdeal Cert.KernelIdeal.Gen Cert.Rtu
open Idealize.ShloMosaic Idealize.ShloMosaic.TcCoe Idealize.ShloMosaic.ValueIdx Idealize.SL.Sem
open Idealize.ShloMosaic.Pipeline (Dat Cfg Window)

theorem hz1 : (![0] : Fin 1 → Nat) = fun _ => 0 := funext fun a => by fin_cases a <;> rfl
theorem hz3 : (![0, 0, 0] : Fin 3 → Nat) = fun _ => 0 := funext fun a => by fin_cases a <;> rfl

/-! ## Where a block sits in its array -/

theorem lt64 : ∀ t : Fin cfg1.N, t.val < 64 := (by decide +kernel : ∀ t : Fin grid1.N, t.val < 64)

/-- Row `s` of point `t`'s block is row `2·t + s` of the array. -/
def row (t : Fin cfg1.N) (s : Fin 2) : Fin 128 := ⟨t.val * 2 + s.val, by have := lt64 t; have := s.isLt; omega⟩

/-- The point that holds row `p`, and the row inside its block. -/
def pointOf (p : Fin 128) : Fin cfg1.N := ⟨p.val / 2, by
  show p.val / 2 < grid1.N
  rw [N_1]; have := p.isLt; omega⟩
def within (p : Fin 128) : Fin 2 := ⟨p.val % 2, Nat.mod_lt _ (by decide)⟩
theorem row_pointOf (p : Fin 128) : row (pointOf p) (within p) = p :=
  Fin.ext (by show p.val / 2 * 2 + p.val % 2 = p.val; omega)

/-- The printed index maps over the grid: every rank-3 window is at block `(t, 0, 0)`, the three vectors at block `0`. -/
theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)
theorem idx1_2 : ∀ t : Fin cfg1.N, win1_2.index t (0 : Fin 3) = t.val ∧ win1_2.index t (1 : Fin 3) = 0 ∧ win1_2.index t (2 : Fin 3) = 0 :=
  (by decide +kernel : ∀ t : Fin grid1.N, _)
theorem idx1_3 : ∀ t : Fin cfg1.N, win1_3.index t (0 : Fin 3) = t.val ∧ win1_3.index t (1 : Fin 3) = 0 ∧ win1_3.index t (2 : Fin 3) = 0 :=
  (by decide +kernel : ∀ t : Fin grid1.N, _)
theorem idx1_4 : ∀ t : Fin cfg1.N, win1_4.index t (0 : Fin 3) = t.val ∧ win1_4.index t (1 : Fin 3) = 0 ∧ win1_4.index t (2 : Fin 3) = 0 :=
  (by decide +kernel : ∀ t : Fin grid1.N, _)
theorem idx1_8 : ∀ t : Fin cfg1.N, win1_8.index t (0 : Fin 3) = t.val ∧ win1_8.index t (1 : Fin 3) = 0 ∧ win1_8.index t (2 : Fin 3) = 0 :=
  (by decide +kernel : ∀ t : Fin grid1.N, _)
theorem idx1_9 : ∀ t : Fin cfg1.N, win1_9.index t (0 : Fin 3) = t.val ∧ win1_9.index t (1 : Fin 3) = 0 ∧ win1_9.index t (2 : Fin 3) = 0 :=
  (by decide +kernel : ∀ t : Fin grid1.N, _)
theorem idx1_10 : ∀ t : Fin cfg1.N, win1_10.index t (0 : Fin 3) = t.val ∧ win1_10.index t (1 : Fin 3) = 0 ∧ win1_10.index t (2 : Fin 3) = 0 :=
  (by decide +kernel : ∀ t : Fin grid1.N, _)
theorem idx1_11 : ∀ t : Fin cfg1.N, win1_11.index t (0 : Fin 3) = t.val ∧ win1_11.index t (1 : Fin 3) = 0 ∧ win1_11.index t (2 : Fin 3) = 0 :=
  (by decide +kernel : ∀ t : Fin grid1.N, _)
theorem idx1_5 : ∀ t : Fin cfg1.N, win1_5.index t (0 : Fin 1) = 0 := (by decide +kernel : ∀ t : Fin grid1.N, _)
theorem idx1_6 : ∀ t : Fin cfg1.N, win1_6.index t (0 : Fin 1) = 0 := (by decide +kernel : ∀ t : Fin grid1.N, _)
theorem idx1_7 : ∀ t : Fin cfg1.N, win1_7.index t (0 : Fin 1) = 0 := (by decide +kernel : ∀ t : Fin grid1.N, _)

section Place

variable (V : (c : Dev nD) → (b : Ref sig .tc) → Buf (Elt Ideal) ((c : Thread nD τ).loc b)) (c : Dev nD)
variable (t : Fin cfg1.N)

set_option hygiene false in
/-- A block's element at `(s, d, q)` on a row-pair window whose last axis has `L` entries: the array's `(2·t + s, d, q)`. -/
local macro "rows_at" w:ident L:num : tactic => `(tactic| (
  refine funext fun a => Fin.ext ?_
  match a with
  | ⟨0, _⟩ => (show ($w).index t (0 : Fin 3) * 2 + 1 * s.val = t.val * 2 + s.val; omega)
  | ⟨1, _⟩ => (show ($w).index t (1 : Fin 3) * 256 + 1 * d.val = d.val; omega)
  | ⟨2, _⟩ => (show ($w).index t (2 : Fin 3) * $L + 1 * q.val = q.val; omega)))

section
variable (s : Fin 2) (d : Fin 256) (q : Fin 512)
theorem emb1_0 : ((cfg1.win 0).blk t).view.emb (ix3 s d q) = ix3 (row t s) d q := by obtain ⟨e0, e1, e2⟩ := idx1_0 t; rows_at win1_0 512
theorem emb1_1 : ((cfg1.win 1).blk t).view.emb (ix3 s d q) = ix3 (row t s) d q := by obtain ⟨e0, e1, e2⟩ := idx1_1 t; rows_at win1_1 512
theorem emb1_2 : ((cfg1.win 2).blk t).view.emb (ix3 s d q) = ix3 (row t s) d q := by obtain ⟨e0, e1, e2⟩ := idx1_2 t; rows_at win1_2 512
theorem emb1_3 : ((cfg1.win 3).blk t).view.emb (ix3 s d q) = ix3 (row t s) d q := by obtain ⟨e0, e1, e2⟩ := idx1_3 t; rows_at win1_3 512
theorem emb1_8 : ((cfg1.win 8).blk t).view.emb (ix3 s d q) = ix3 (row t s) d q := by obtain ⟨e0, e1, e2⟩ := idx1_8 t; rows_at win1_8 512
theorem emb1_9 : ((cfg1.win 9).blk t).view.emb (ix3 s d q) = ix3 (row t s) d q := by obtain ⟨e0, e1, e2⟩ := idx1_9 t; rows_at win1_9 512
theorem emb1_10 : ((cfg1.win 10).blk t).view.emb (ix3 s d q) = ix3 (row t s) d q := by obtain ⟨e0, e1, e2⟩ := idx1_10 t; rows_at win1_10 512
theorem emb1_11 : ((cfg1.win 11).blk t).view.emb (ix3 s d q) = ix3 (row t s) d q := by obtain ⟨e0, e1, e2⟩ := idx1_11 t; rows_at win1_11 512
end

section
variable (s : Fin 2) (d : Fin 256) (q : Fin 1)
theorem emb1_4 : ((cfg1.win 4).blk t).view.emb (ix3 s d q) = ix3 (row t s) d q := by obtain ⟨e0, e1, e2⟩ := idx1_4 t; rows_at win1_4 1
end

section
variable (q : Fin 512)
theorem emb1_5 : ((cfg1.win 5).blk t).view.emb (ix1 q) = ix1 q := by
  have e0 := idx1_5 t
  refine funext fun a => Fin.ext ?_
  match a with
  | ⟨0, _⟩ => show win1_5.index t (0 : Fin 1) * 512 + 1 * q.val = q.val; omega
theorem emb1_6 : ((cfg1.win 6).blk t).view.emb (ix1 q) = ix1 q := by
  have e0 := idx1_6 t
  refine funext fun a => Fin.ext ?_
  match a with
  | ⟨0, _⟩ => show win1_6.index t (0 : Fin 1) * 512 + 1 * q.val = q.val; omega
theorem emb1_7 : ((cfg1.win 7).blk t).view.emb (ix1 q) = ix1 q := by
  have e0 := idx1_7 t
  refine funext fun a => Fin.ext ?_
  match a with
  | ⟨0, _⟩ => show win1_7.index t (0 : Fin 1) * 512 + 1 * q.val = q.val; omega
end

/-! ## The input blocks, read where they sit -/

theorem read1_0 (s : Fin 2) (d : Fin 256) (q : Fin 512) : iblk1 V c 0 t (ix3 s d q) = V c main_arg7 (ix3 (row t s) d q) := by
  show V c main_arg7 (((cfg1.win 0).blk t).view.emb (ix3 s d q)) = _
  rw [emb1_0]
theorem read1_1 (s : Fin 2) (d : Fin 256) (q : Fin 512) : iblk1 V c 1 t (ix3 s d q) = V c main_arg8 (ix3 (row t s) d q) := by
  show V c main_arg8 (((cfg1.win 1).blk t).view.emb (ix3 s d q)) = _
  rw [emb1_1]
theorem read1_2 (s : Fin 2) (d : Fin 256) (q : Fin 512) : iblk1 V c 2 t (ix3 s d q) = V c main_arg9 (ix3 (row t s) d q) := by
  show V c main_arg9 (((cfg1.win 2).blk t).view.emb (ix3 s d q)) = _
  rw [emb1_2]
theorem read1_3 (s : Fin 2) (d : Fin 256) (q : Fin 512) : iblk1 V c 3 t (ix3 s d q) = V c main_arg10 (ix3 (row t s) d q) := by
  show V c main_arg10 (((cfg1.win 3).blk t).view.emb (ix3 s d q)) = _
  rw [emb1_3]
theorem read1_4 (s : Fin 2) (d : Fin 256) (u : Fin 1) : iblk1 V c 4 t (ix3 s d u) = V c main_v3 (ix3 (row t s) d u) := by
  show V c main_v3 (((cfg1.win 4).blk t).view.emb (ix3 s d u)) = _
  rw [emb1_4]
theorem read1_5 (q : Fin 512) : iblk1 V c 5 t (ix1 q) = V c main_v0_6 (ix1 q) := by
  show V c main_v0_6 (((cfg1.win 5).blk t).view.emb (ix1 q)) = _
  rw [emb1_5]
theorem read1_6 (q : Fin 512) : iblk1 V c 6 t (ix1 q) = V c main_v0_7 (ix1 q) := by
  show V c main_v0_7 (((cfg1.win 6).blk t).view.emb (ix1 q)) = _
  rw [emb1_6]
theorem read1_7 (q : Fin 512) : iblk1 V c 7 t (ix1 q) = V c main_v0_8 (ix1 q) := by
  show V c main_v0_8 (((cfg1.win 7).blk t).view.emb (ix1 q)) = _
  rw [emb1_7]

end Place

/-! ## What a point writes back, the cover, and the arrays after the region -/

section After

variable (V : (c : Dev nD) → (b : Ref sig .tc) → Buf (Elt Ideal) ((c : Thread nD τ).loc b)) (c : Dev nD)

/-- Opens `flushed w t` down to the body's payload term on the point's input blocks. -/
local macro "open_block" aft:ident out:ident : tactic => `(tactic| (
  rw [$aft:ident]
  unfold $out:ident
  rw [View.canon_unit_zero hz3]
  simp only [View.ld_unit_zero (S := S512) hz1, View.ld_unit_zero (S := S2x256x1) hz3, View.ld_unit_zero (S := S2x256x512) hz3]))

theorem flushed1_8 (t : Fin cfg1.N) : (dat1 V c).flushed 8 t = ((cfg1.win 8).blk t).view.read (Elt Ideal)
    (turn1x (V c main_v0_6) (V c main_v0_7) (V c main_v0_8) (V c main_v3) (V c main_arg7) (V c main_arg8)) := by
  show (cfg1.win 8).cut (grid1.coords t) ((dat1 V c).after 8 t) = _
  open_block after1_8 out1_8
  funext y
  obtain ⟨s, d, q, rfl⟩ : ∃ (s : Fin 2) (d : Fin 256) (q : Fin 512), y = ix3 s d q := ⟨y 0, y 1, y 2, eq_ix3 y⟩
  show _ = turn1x (V c main_v0_6) (V c main_v0_7) (V c main_v0_8) (V c main_v3) (V c main_arg7) (V c main_arg8)
    (((cfg1.win 8).blk t).view.emb (ix3 s d q))
  rw [emb1_8]
  refine (w11_block (iblk1 V c 0 t) (iblk1 V c 1 t) (iblk1 V c 4 t) (iblk1 V c 5 t) (iblk1 V c 6 t) (iblk1 V c 7 t) s d q).trans ?_
  rw [read1_5, read1_6, read1_7, read1_0, read1_1, read1_4]
  rfl

theorem flushed1_9 (t : Fin cfg1.N) : (dat1 V c).flushed 9 t = ((cfg1.win 9).blk t).view.read (Elt Ideal)
    (turn2 (V c main_v0_6) (V c main_v0_7) (V c main_arg7) (V c main_arg8)) := by
  show (cfg1.win 9).cut (grid1.coords t) ((dat1 V c).after 9 t) = _
  open_block after1_9 out1_9
  funext y
  obtain ⟨s, d, q, rfl⟩ : ∃ (s : Fin 2) (d : Fin 256) (q : Fin 512), y = ix3 s d q := ⟨y 0, y 1, y 2, eq_ix3 y⟩
  show _ = turn2 (V c main_v0_6) (V c main_v0_7) (V c main_arg7) (V c main_arg8) (((cfg1.win 9).blk t).view.emb (ix3 s d q))
  rw [emb1_9]
  refine (w12_block (iblk1 V c 0 t) (iblk1 V c 1 t) (iblk1 V c 5 t) (iblk1 V c 6 t) s d q).trans ?_
  rw [read1_5, read1_6, read1_0, read1_1]
  rfl

theorem flushed1_10 (t : Fin cfg1.N) : (dat1 V c).flushed 10 t = ((cfg1.win 10).blk t).view.read (Elt Ideal)
    (turn1 (V c main_v0_6) (V c main_v0_7) (V c main_arg9) (V c main_arg10)) := by
  show (cfg1.win 10).cut (grid1.coords t) ((dat1 V c).after 10 t) = _
  open_block after1_10 out1_10
  funext y
  obtain ⟨s, d, q, rfl⟩ : ∃ (s : Fin 2) (d : Fin 256) (q : Fin 512), y = ix3 s d q := ⟨y 0, y 1, y 2, eq_ix3 y⟩
  show _ = turn1 (V c main_v0_6) (V c main_v0_7) (V c main_arg9) (V c main_arg10) (((cfg1.win 10).blk t).view.emb (ix3 s d q))
  rw [emb1_10]
  refine (w21_block (iblk1 V c 2 t) (iblk1 V c 3 t) (iblk1 V c 5 t) (iblk1 V c 6 t) s d q).trans ?_
  rw [read1_5, read1_6, read1_2, read1_3]
  rfl

theorem flushed1_11 (t : Fin cfg1.N) : (dat1 V c).flushed 11 t = ((cfg1.win 11).blk t).view.read (Elt Ideal)
    (turn2x (V c main_v0_6) (V c main_v0_7) (V c main_v0_8) (V c main_v3) (V c main_arg9) (V c main_arg10)) := by
  show (cfg1.win 11).cut (grid1.coords t) ((dat1 V c).after 11 t) = _
  open_block after1_11 out1_11
  funext y
  obtain ⟨s, d, q, rfl⟩ : ∃ (s : Fin 2) (d : Fin 256) (q : Fin 512), y = ix3 s d q := ⟨y 0, y 1, y 2, eq_ix3 y⟩
  show _ = turn2x (V c main_v0_6) (V c main_v0_7) (V c main_v0_8) (V c main_v3) (V c main_arg9) (V c main_arg10)
    (((cfg1.win 11).blk t).view.emb (ix3 s d q))
  rw [emb1_11]
  refine (w22_block (iblk1 V c 2 t) (iblk1 V c 3 t) (iblk1 V c 4 t) (iblk1 V c 5 t) (iblk1 V c 6 t) (iblk1 V c 7 t) s d q).trans ?_
  rw [read1_5, read1_6, read1_7, read1_2, read1_3, read1_4]
  rfl

set_option hygiene false in
/-- The 64 row pairs cover a `[128, 256, 512]` array: row `p` lies in point `p / 2`'s block. -/
local macro "cover_rows" fl:ident em:ident w:num : tactic => `(tactic| (
  intro i
  obtain ⟨p, d, q, rfl⟩ : ∃ (p : Fin 128) (d : Fin 256) (q : Fin 512), i = ix3 p d q := ⟨i 0, i 1, i 2, eq_ix3 i⟩
  refine ⟨pointOf p, $fl:ident _, ?_⟩
  have h := ((cfg1.win $w).blk (pointOf p)).view.emb_mem_set (ix3 (within p) d q)
  rwa [$em:ident, row_pointOf] at h))

theorem final1_8 : (dat1 V c).arrAt 8 cfg1.N
    = turn1x (V c main_v0_6) (V c main_v0_7) (V c main_v0_8) (V c main_v3) (V c main_arg7) (V c main_arg8) :=
  (dat1 V c).arrAt_eq_of_cover 8 _ (fun t _ => flushed1_8 V c t) (by cover_rows flush1_8 emb1_8 8)
theorem final1_9 : (dat1 V c).arrAt 9 cfg1.N = turn2 (V c main_v0_6) (V c main_v0_7) (V c main_arg7) (V c main_arg8) :=
  (dat1 V c).arrAt_eq_of_cover 9 _ (fun t _ => flushed1_9 V c t) (by cover_rows flush1_9 emb1_9 9)
theorem final1_10 : (dat1 V c).arrAt 10 cfg1.N = turn1 (V c main_v0_6) (V c main_v0_7) (V c main_arg9) (V c main_arg10) :=
  (dat1 V c).arrAt_eq_of_cover 10 _ (fun t _ => flushed1_10 V c t) (by cover_rows flush1_10 emb1_10 10)
theorem final1_11 : (dat1 V c).arrAt 11 cfg1.N
    = turn2x (V c main_v0_6) (V c main_v0_7) (V c main_v0_8) (V c main_v3) (V c main_arg9) (V c main_arg10) :=
  (dat1 V c).arrAt_eq_of_cover 11 _ (fun t _ => flushed1_11 V c t) (by cover_rows flush1_11 emb1_11 11)

end After

end Cert.KernelIdeal.Big

end
-- ==== Proof.LibHostLanes.lean ====
/-
  The host's two-step broadcasts of a per-lane vector, and of a matrix along a new last axis, read at an index:
  * a `[b]` vector broadcast to a `[1, b]` row and then down `a` rows reads, at `(p, q)`, the vector at `q`;
  * a `[c]` vector broadcast to a `[1, 1, c]` line and then over an `[a, b, c]` array reads, at `(p, d, q)`, the vector at `q`;
  * an `[a, b]` matrix broadcast to `[a, b, 1]` and then along `c` lanes reads, at `(p, d, q)`, the matrix at `(p, d)`;
  * a scalar broadcast to any shape reads the scalar.
-/
import Idealize.ShloMosaic.Lib.Pipeline.Value
import Idealize.ShloMosaic.Lib.ValueIdx

namespace Cert.HostLanes

open Idealize.ShloMosaic Idealize.ShloMosaic.ValueIdx

variable {α : Type}

/-- A `[b]` vector as a `[1, b]` row repeated down `a` rows. -/
theorem rows_apply {a b : ℕ} (v : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1])
    (p : Fin a) (q : Fin b) :
    broadcastInDim ⟨2, ![a, b]⟩ ![0, 1] h2 (broadcastInDim ⟨2, ![1, b]⟩ ![1] h1 v) (ix2 p q) = v (ix1 q) := by
  rw [broadcastInDim_apply ![0, 1] h2 _ (ix2 p q) (ix2 (0 : Fin 1) q) (fun ax => by
    match ax with
    | ⟨0, _⟩ => rfl
    | ⟨1, _⟩ =>
      show q.val = if b = 1 then 0 else q.val
      split
      · have := q.isLt; omega
      · rfl)]
  exact broadcastInDim_apply ![1] h1 _ (ix2 (0 : Fin 1) q) (ix1 q) (fun ax => by
    match ax with
    | ⟨0, _⟩ =>
      show q.val = if b = 1 then 0 else q.val
      split
      · have := q.isLt; omega
      · rfl)

/-- A `[c]` vector as a `[1, 1, c]` line repeated over an `[a, b, c]` array. -/
theorem lanes_apply {a b c : ℕ} (v : (⟨1, ![c]⟩ : Shape).Idx → α)
    (h1 : (⟨1, ![c]⟩ : Shape).BroadcastsInDim ⟨3, ![1, 1, c]⟩ ![2])
    (h2 : (⟨3, ![1, 1, c]⟩ : Shape).BroadcastsInDim ⟨3, ![a, b, c]⟩ ![0, 1, 2]) (p : Fin a) (d : Fin b) (q : Fin c) :
    broadcastInDim ⟨3, ![a, b, c]⟩ ![0, 1, 2] h2 (broadcastInDim ⟨3, ![1, 1, c]⟩ ![2] h1 v) (ix3 p d q) = v (ix1 q) := by
  rw [broadcastInDim_apply ![0, 1, 2] h2 _ (ix3 p d q) (ix3 (0 : Fin 1) (0 : Fin 1) q) (fun ax => by
    match ax with
    | ⟨0, _⟩ => rfl
    | ⟨1, _⟩ => rfl
    | ⟨2, _⟩ =>
      show q.val = if c = 1 then 0 else q.val
      split
      · have := q.isLt; omega
      · rfl)]
  exact broadcastInDim_apply ![2] h1 _ (ix3 (0 : Fin 1) (0 : Fin 1) q) (ix1 q) (fun ax => by
    match ax with
    | ⟨0, _⟩ =>
      show q.val = if c = 1 then 0 else q.val
      split
      · have := q.isLt; omega
      · rfl)

/-- An `[a, b]` matrix given a last unit axis, at `(p, d, u)`. -/
theorem unitLast_apply {a b : ℕ} (x : (⟨2, ![a, b]⟩ : Shape).Idx → α)
    (h1 : (⟨2, ![a, b]⟩ : Shape).BroadcastsInDim ⟨3, ![a, b, 1]⟩ ![0, 1]) (p : Fin a) (d : Fin b) (u : Fin 1) :
    broadcastInDim ⟨3, ![a, b, 1]⟩ ![0, 1] h1 x (ix3 p d u) = x (ix2 p d) :=
  broadcastInDim_apply ![0, 1] h1 _ (ix3 p d u) (ix2 p d) (fun ax => by
    match ax with
    | ⟨0, _⟩ =>
      show p.val = if a = 1 then 0 else p.val
      split
      · have := p.isLt; omega
      · rfl
    | ⟨1, _⟩ =>
      show d.val = if b = 1 then 0 else d.val
      split
      · have := d.isLt; omega
      · rfl)

/-- An `[a, b]` matrix given a last unit axis and repeated along `c` lanes. -/
theorem alongLanes_apply {a b c : ℕ} (x : (⟨2, ![a, b]⟩ : Shape).Idx → α)
    (h1 : (⟨2, ![a, b]⟩ : Shape).BroadcastsInDim ⟨3, ![a, b, 1]⟩ ![0, 1])
    (h2 : (⟨3, ![a, b, 1]⟩ : Shape).BroadcastsInDim ⟨3, ![a, b, c]⟩ ![0, 1, 2]) (p : Fin a) (d : Fin b) (q : Fin c) :
    broadcastInDim ⟨3, ![a, b, c]⟩ ![0, 1, 2] h2 (broadcastInDim ⟨3, ![a, b, 1]⟩ ![0, 1] h1 x) (ix3 p d q) = x (ix2 p d) := by
  rw [broadcastInDim_apply ![0, 1, 2] h2 _ (ix3 p d q) (ix3 p d (0 : Fin 1)) (fun ax => by
    match ax with
    | ⟨0, _⟩ =>
      show p.val = if a = 1 then 0 else p.val
      split
      · have := p.isLt; omega
      · rfl
    | ⟨1, _⟩ =>
      show d.val = if b = 1 then 0 else d.val
      split
      · have := d.isLt; omega
      · rfl
    | ⟨2, _⟩ => rfl)]
  exact unitLast_apply x h1 p d 0

/-- A scalar broadcast to any shape reads the scalar. -/
theorem splat_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun ax => ax.elim0)

end Cert.HostLanes
-- ==== Proof.KernelRun.lean ====
/-
  The idealized kernel program's run, with every result named.

  @main is the first kernel's region, three stretches of host operations (the concatenation of the two new hidden
  states, its rectification, and `x` given a last unit axis), then the second kernel's region.  The run through these
  five segments leaves every buffer at the contents the fold `W0 … W5` of the generated frame names; here the same run
  is stated with all of them in its post, and each result buffer is then walked back through the fold: a region's
  result to that region's arrays after it (the functions of Spec.lean, by the two region modules), anything a stretch
  or a region does not write to what it held before.  The three lane vectors the first region leaves are what the
  second region reads, so its rotations are the weight traces.
-/
import proofs.«155310_j53712861003855_2_alg».proof.Proof.Gen.KernelIdeal.Frame
import proofs.«155310_j53712861003855_2_alg».proof.Proof.RegionSmall
import proofs.«155310_j53712861003855_2_alg».proof.Proof.RegionBig
import proofs.«155310_j53712861003855_2_alg».proof.Proof.LibHostLanes
import Idealize.ShloMosaic.Lib.StableHlo.Run

set_option maxRecDepth 16384

noncomputable section

namespace Cert.KernelIdeal.RunValue

open Cert.KernelIdeal Cert.KernelIdeal.Gen Cert.Rtu
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run, every unscoped buffer named -/

set_option backward.isDefEq.respectTransparency.types false in
/-- Every weakly fair execution of @main terminates, nothing faulting, with every unscoped buffer of every core at the
    last boundary's contents `W5`. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## Walking a buffer back through the fold -/

variable (c : Dev nD)

/-- No operation of the named stretch writes the buffer: it holds after the stretch what it held before. -/
local macro "unwritten" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

set_option hygiene false in
/-- None of the three host stretches writes the buffer. -/
local macro "host_keeps" b:ident : term => `(
  (calc W4 m ρ c (Proc.devRef .tc $b)
    _ = W3 m ρ c (Proc.devRef .tc $b) := by unwritten hostOps1_2
    _ = W2 m ρ c (Proc.devRef .tc $b) := by unwritten hostOps1_1
    _ = W1 m ρ c (Proc.devRef .tc $b) := by unwritten hostOps1))

/-! ### The first region's results, after it -/

theorem small_0 : W1 m ρ c (Proc.devRef .tc main_v0_0)
    = newH1 (m ((c : Thread nD τ).loc main_arg0)) (m ((c : Thread nD τ).loc main_arg11)) (m ((c : Thread nD τ).loc main_arg13))
        (m ((c : Thread nD τ).loc main_arg14)) (m ((c : Thread nD τ).loc main_arg1)) (m ((c : Thread nD τ).loc main_arg2)) :=
  (W1_arr m ρ c 11).trans (Small.final0_11 (V0 m ρ) c)
theorem small_1 : W1 m ρ c (Proc.devRef .tc main_v0_1)
    = newH2 (m ((c : Thread nD τ).loc main_arg0)) (m ((c : Thread nD τ).loc main_arg12)) (m ((c : Thread nD τ).loc main_arg13))
        (m ((c : Thread nD τ).loc main_arg14)) (m ((c : Thread nD τ).loc main_arg1)) (m ((c : Thread nD τ).loc main_arg2)) :=
  (W1_arr m ρ c 12).trans (Small.final0_12 (V0 m ρ) c)
theorem small_2 : W1 m ρ c (Proc.devRef .tc main_v0_2)
    = newN1 (m ((c : Thread nD τ).loc main_arg0)) (m ((c : Thread nD τ).loc main_arg11)) (m ((c : Thread nD τ).loc main_arg13))
        (m ((c : Thread nD τ).loc main_arg14)) (m ((c : Thread nD τ).loc main_arg1)) (m ((c : Thread nD τ).loc main_arg2))
        (m ((c : Thread nD τ).loc main_arg3)) (m ((c : Thread nD τ).loc main_arg4)) :=
  (W1_arr m ρ c 13).trans (Small.final0_13 (V0 m ρ) c)
theorem small_3 : W1 m ρ c (Proc.devRef .tc main_v0_3)
    = newN2 (m ((c : Thread nD τ).loc main_arg0)) (m ((c : Thread nD τ).loc main_arg12)) (m ((c : Thread nD τ).loc main_arg13))
        (m ((c : Thread nD τ).loc main_arg14)) (m ((c : Thread nD τ).loc main_arg1)) (m ((c : Thread nD τ).loc main_arg2))
        (m ((c : Thread nD τ).loc main_arg3)) (m ((c : Thread nD τ).loc main_arg4)) :=
  (W1_arr m ρ c 14).trans (Small.final0_14 (V0 m ρ) c)
theorem small_4 : W1 m ρ c (Proc.devRef .tc main_v0_4)
    = newT1 (m ((c : Thread nD τ).loc main_arg13)) (m ((c : Thread nD τ).loc main_arg14)) (m ((c : Thread nD τ).loc main_arg1))
        (m ((c : Thread nD τ).loc main_arg2)) (m ((c : Thread nD τ).loc main_arg5)) (m ((c : Thread nD τ).loc main_arg6)) :=
  (W1_arr m ρ c 15).trans (Small.final0_15 (V0 m ρ) c)
theorem small_5 : W1 m ρ c (Proc.devRef .tc main_v0_5)
    = newT2 (m ((c : Thread nD τ).loc main_arg13)) (m ((c : Thread nD τ).loc main_arg14)) (m ((c : Thread nD τ).loc main_arg1))
        (m ((c : Thread nD τ).loc main_arg2)) (m ((c : Thread nD τ).loc main_arg5)) (m ((c : Thread nD τ).loc main_arg6)) :=
  (W1_arr m ρ c 16).trans (Small.final0_16 (V0 m ρ) c)
theorem small_6 : W1 m ρ c (Proc.devRef .tc main_v0_6)
    = vecA (m ((c : Thread nD τ).loc main_arg13)) (m ((c : Thread nD τ).loc main_arg14)) :=
  (W1_arr m ρ c 17).trans (Small.final0_17 (V0 m ρ) c)
theorem small_7 : W1 m ρ c (Proc.devRef .tc main_v0_7)
    = vecB (m ((c : Thread nD τ).loc main_arg13)) (m ((c : Thread nD τ).loc main_arg14)) :=
  (W1_arr m ρ c 18).trans (Small.final0_18 (V0 m ρ) c)
theorem small_8 : W1 m ρ c (Proc.devRef .tc main_v0_8) = vecG (m ((c : Thread nD τ).loc main_arg13)) :=
  (W1_arr m ρ c 19).trans (Small.final0_19 (V0 m ρ) c)

/-! ### What the second region finds -/

theorem big_A : V4 m ρ c main_v0_6 = vecA (m ((c : Thread nD τ).loc main_arg13)) (m ((c : Thread nD τ).loc main_arg14)) :=
  (host_keeps main_v0_6).trans (small_6 m ρ c)
theorem big_B : V4 m ρ c main_v0_7 = vecB (m ((c : Thread nD τ).loc main_arg13)) (m ((c : Thread nD τ).loc main_arg14)) :=
  (host_keeps main_v0_7).trans (small_7 m ρ c)
theorem big_G : V4 m ρ c main_v0_8 = vecG (m ((c : Thread nD τ).loc main_arg13)) :=
  (host_keeps main_v0_8).trans (small_8 m ρ c)

/-- An argument the second region reads through an input window is what the launch held: the window's array after the
    region is its array at entry, and the generated frame walks the former back to the launch. -/
theorem big_arg7 : V4 m ρ c main_arg7 = m ((c : Thread nD τ).loc main_arg7) :=
  ((W5_arr m ρ c 0).trans (((dat1 (V4 m ρ) c).arrAt_in 0 rfl _).trans (A_eq1 (V4 m ρ) c 0))).symm.trans (W5_main_arg7 m ρ c)
theorem big_arg8 : V4 m ρ c main_arg8 = m ((c : Thread nD τ).loc main_arg8) :=
  ((W5_arr m ρ c 1).trans (((dat1 (V4 m ρ) c).arrAt_in 1 rfl _).trans (A_eq1 (V4 m ρ) c 1))).symm.trans (W5_main_arg8 m ρ c)
theorem big_arg9 : V4 m ρ c main_arg9 = m ((c : Thread nD τ).loc main_arg9) :=
  ((W5_arr m ρ c 2).trans (((dat1 (V4 m ρ) c).arrAt_in 2 rfl _).trans (A_eq1 (V4 m ρ) c 2))).symm.trans (W5_main_arg9 m ρ c)
theorem big_arg10 : V4 m ρ c main_arg10 = m ((c : Thread nD τ).loc main_arg10) :=
  ((W5_arr m ρ c 3).trans (((dat1 (V4 m ρ) c).arrAt_in 3 rfl _).trans (A_eq1 (V4 m ρ) c 3))).symm.trans (W5_main_arg10 m ρ c)

/-- `x` as the second region finds it: the last stretch's one operation applied to `x` as launched. -/
theorem big_x3 (p : Fin 128) (d : Fin 256) :
    V4 m ρ c main_v3 (ix3 p d (0 : Fin 1)) = m ((c : Thread nD τ).loc main_arg0) (ix2 p d) := by
  have e : V4 m ρ c main_v3
      = broadcastInDim S128x256x1 ![0, 1] bcast_S128x256_S128x256x1_0_1 (W3 m ρ c (Proc.devRef .tc main_arg0)) := by
    show StableHlo.after hostOps1_2 (W3 m ρ c) (Proc.devRef .tc main_v3) = _
    after_results
  have e0 : W3 m ρ c (Proc.devRef .tc main_arg0) = m ((c : Thread nD τ).loc main_arg0) :=
    calc W3 m ρ c (Proc.devRef .tc main_arg0)
      _ = W2 m ρ c (Proc.devRef .tc main_arg0) := by unwritten hostOps1_1
      _ = W1 m ρ c (Proc.devRef .tc main_arg0) := by unwritten hostOps1
      _ = W0 m ρ c (Proc.devRef .tc main_arg0) := (W1_arr m ρ c 0).trans (((dat0 (V0 m ρ) c).arrAt_in 0 rfl _).trans (A_eq0 (V0 m ρ) c 0))
      _ = m ((c : Thread nD τ).loc main_arg0) := rfl
  rw [e, e0]
  exact HostLanes.unitLast_apply _ _ p d 0

/-! ### The eleven results -/

/-- The rectified concatenation of the two new hidden states: the host's tail, as both programs spell it. -/
def joinRelu (a b : FVec Ideal S128x512 .f32) : FVec Ideal S128x1024 .f32 :=
  maximumf (concatenate S128x1024 1 [⟨S128x512, a⟩, ⟨S128x512, b⟩] concatenates_S128x512_S128x512_S128x1024_d1)
    (broadcastInDim S128x1024 ![] bcast_S_S128x1024 (constant (F := Ideal) S_ .f32 0x00000000#32))

theorem out_h : W5 m ρ c (Proc.devRef .tc main_v2)
    = joinRelu (W1 m ρ c (Proc.devRef .tc main_v0_0)) (W1 m ρ c (Proc.devRef .tc main_v0_1)) := by
  have e1 : W2 m ρ c (Proc.devRef .tc main_v1)
      = concatenate S128x1024 1 [⟨S128x512, W1 m ρ c (Proc.devRef .tc main_v0_0)⟩, ⟨S128x512, W1 m ρ c (Proc.devRef .tc main_v0_1)⟩]
          concatenates_S128x512_S128x512_S128x1024_d1 := by
    show StableHlo.after hostOps1 (W1 m ρ c) (Proc.devRef .tc main_v1) = _
    after_results
  have e2 : W3 m ρ c (Proc.devRef .tc main_v2)
      = maximumf (W2 m ρ c (Proc.devRef .tc main_v1))
          (broadcastInDim S128x1024 ![] bcast_S_S128x1024 (constant (F := Ideal) S_ .f32 0x00000000#32)) := by
    show StableHlo.after hostOps1_1 (W2 m ρ c) (Proc.devRef .tc main_v2) = _
    after_results
    rfl
  calc W5 m ρ c (Proc.devRef .tc main_v2)
    _ = W4 m ρ c (Proc.devRef .tc main_v2) := W5_of_ne m ρ c main_v2 (by decide)
    _ = W3 m ρ c (Proc.devRef .tc main_v2) := by unwritten hostOps1_2
    _ = _ := by rw [e2, e1]; rfl

theorem out_0 : W5 m ρ c (Proc.devRef .tc main_v0_0) = W1 m ρ c (Proc.devRef .tc main_v0_0) :=
  (W5_of_ne m ρ c main_v0_0 (by decide)).trans (host_keeps main_v0_0)
theorem out_1 : W5 m ρ c (Proc.devRef .tc main_v0_1) = W1 m ρ c (Proc.devRef .tc main_v0_1) :=
  (W5_of_ne m ρ c main_v0_1 (by decide)).trans (host_keeps main_v0_1)
theorem out_2 : W5 m ρ c (Proc.devRef .tc main_v0_2) = W1 m ρ c (Proc.devRef .tc main_v0_2) :=
  (W5_of_ne m ρ c main_v0_2 (by decide)).trans (host_keeps main_v0_2)
theorem out_3 : W5 m ρ c (Proc.devRef .tc main_v0_3) = W1 m ρ c (Proc.devRef .tc main_v0_3) :=
  (W5_of_ne m ρ c main_v0_3 (by decide)).trans (host_keeps main_v0_3)
theorem out_4 : W5 m ρ c (Proc.devRef .tc main_v0_4) = W1 m ρ c (Proc.devRef .tc main_v0_4) :=
  (W5_of_ne m ρ c main_v0_4 (by decide)).trans (host_keeps main_v0_4)
theorem out_5 : W5 m ρ c (Proc.devRef .tc main_v0_5) = W1 m ρ c (Proc.devRef .tc main_v0_5) :=
  (W5_of_ne m ρ c main_v0_5 (by decide)).trans (host_keeps main_v0_5)

theorem out_w11 : W5 m ρ c (Proc.devRef .tc main_v4_0)
    = newW1x (m ((c : Thread nD τ).loc main_arg0)) (m ((c : Thread nD τ).loc main_arg13)) (m ((c : Thread nD τ).loc main_arg14))
        (m ((c : Thread nD τ).loc main_arg7)) (m ((c : Thread nD τ).loc main_arg8)) := by
  refine ((W5_arr m ρ c 8).trans (Big.final1_8 (V4 m ρ) c)).trans ?_
  rw [big_A, big_B, big_G, big_arg7, big_arg8]
  exact turn1x_vec _ _ _ _ _ _ (big_x3 m ρ c)
theorem out_w12 : W5 m ρ c (Proc.devRef .tc main_v4_1)
    = newW2 (m ((c : Thread nD τ).loc main_arg13)) (m ((c : Thread nD τ).loc main_arg14))
        (m ((c : Thread nD τ).loc main_arg7)) (m ((c : Thread nD τ).loc main_arg8)) := by
  refine ((W5_arr m ρ c 9).trans (Big.final1_9 (V4 m ρ) c)).trans ?_
  rw [big_A, big_B, big_arg7, big_arg8]
  exact turn2_vec _ _ _ _
theorem out_w21 : W5 m ρ c (Proc.devRef .tc main_v4_2)
    = newW1 (m ((c : Thread nD τ).loc main_arg13)) (m ((c : Thread nD τ).loc main_arg14))
        (m ((c : Thread nD τ).loc main_arg9)) (m ((c : Thread nD τ).loc main_arg10)) := by
  refine ((W5_arr m ρ c 10).trans (Big.final1_10 (V4 m ρ) c)).trans ?_
  rw [big_A, big_B, big_arg9, big_arg10]
  exact turn1_vec _ _ _ _
theorem out_w22 : W5 m ρ c (Proc.devRef .tc main_v4_3)
    = newW2x (m ((c : Thread nD τ).loc main_arg0)) (m ((c : Thread nD τ).loc main_arg13)) (m ((c : Thread nD τ).loc main_arg14))
        (m ((c : Thread nD τ).loc main_arg9)) (m ((c : Thread nD τ).loc main_arg10)) := by
  refine ((W5_arr m ρ c 11).trans (Big.final1_11 (V4 m ρ) c)).trans ?_
  rw [big_A, big_B, big_G, big_arg9, big_arg10]
  exact turn2x_vec _ _ _ _ _ _ (big_x3 m ρ c)

end Cert.KernelIdeal.RunValue

end
-- ==== Proof.RefSide.lean ====
/-
  The reference program's results, stage by stage, are the functions of Spec.lean.

  The reference computes every per-lane quantity once on `[512]` vectors, repeats each down the 128 rows (or over the
  `[128, 256, 512]` traces) by a two-step broadcast, and combines them with the argument arrays entry by entry; the two
  input projections are the host's matrix products.  Read at an entry, each result is the lane formula at the
  entry's lane: the host's `exp`, `sqrt`, `cos`, `sin`, negation and quotient are the extended reals' own.
-/
import proofs.«155310_j53712861003855_2_alg».proof.Proof.Gen.ReferenceIdeal.Read
import proofs.«155310_j53712861003855_2_alg».proof.Proof.Spec
import proofs.«155310_j53712861003855_2_alg».proof.Proof.LibMlpRows
import proofs.«155310_j53712861003855_2_alg».proof.Proof.LibHostLanes

noncomputable section

namespace Cert.ReferenceIdeal.RefValue

open Cert.ReferenceIdeal Cert.ReferenceIdeal.Gen Cert.ReferenceIdeal.Read Cert.Rtu Cert.HostLanes Cert.LibMlp
open Idealize.ShloMosaic Idealize.ShloMosaic.ValueIdx

/-- An argument or stage array of the given shape, on the extended reals. -/
abbrev Arr (S : Shape) : Type := (⟨S, .f32⟩ : BufTy).Contents (Elt Ideal)

variable (x0 : Arr S128x256) (x1 x2 x3 x4 x5 x6 : Arr S128x512) (x7 x8 x9 x10 : Arr S128x256x512)
variable (x11 x12 : Arr S256x512) (x13 x14 : Arr S512)

/-! ## The per-lane stages -/

section Lanes
variable (q : Fin 512)

theorem growth_lane : val_main_v0 (F := Ideal) x13 (ix1 q) = growth (x13 (ix1 q)) := rfl
theorem radius_lane : val_main_v2 (F := Ideal) x13 (ix1 q) = radius (x13 (ix1 q)) := rfl
theorem angle_lane : val_main_v3 (F := Ideal) x14 (ix1 q) = angle (x14 (ix1 q)) := rfl

theorem gain_lane : val_main_v7 (F := Ideal) x13 (ix1 q) = gain (x13 (ix1 q)) := by
  show Ideal.sqrt (broadcastInDim S512 ![] bcast_S_S512 (constant (F := Ideal) S_ .f32 0x3F800000#32) (ix1 q)
      - val_main_v2 (F := Ideal) x13 (ix1 q) * val_main_v2 (F := Ideal) x13 (ix1 q)) = _
  rw [splat_apply, radius_lane]
  rfl

theorem rotA_lane : val_main_v9 (F := Ideal) x13 x14 (ix1 q) = rotA (x13 (ix1 q)) (x14 (ix1 q)) := rfl
theorem rotB_lane : val_main_v11 (F := Ideal) x13 x14 (ix1 q) = rotB (x13 (ix1 q)) (x14 (ix1 q)) := rfl
theorem dAν_lane : val_main_v37 (F := Ideal) x13 x14 (ix1 q) = dAν (x13 (ix1 q)) (x14 (ix1 q)) := rfl
theorem dBν_lane : val_main_v39 (F := Ideal) x13 x14 (ix1 q) = dBν (x13 (ix1 q)) (x14 (ix1 q)) := rfl
theorem dgν_lane : val_main_v42 (F := Ideal) x13 (ix1 q) = dgν (x13 (ix1 q)) := by
  show Ideal.div (val_main_v2 (F := Ideal) x13 (ix1 q) * val_main_v2 (F := Ideal) x13 (ix1 q) * val_main_v0 (F := Ideal) x13 (ix1 q))
      (val_main_v7 (F := Ideal) x13 (ix1 q)) = _
  rw [radius_lane, growth_lane, gain_lane]
  rfl
theorem dAθ_lane : val_main_v44 (F := Ideal) x13 x14 (ix1 q) = dAθ (x13 (ix1 q)) (x14 (ix1 q)) := rfl
theorem dBθ_lane : val_main_v45 (F := Ideal) x13 x14 (ix1 q) = dBθ (x13 (ix1 q)) (x14 (ix1 q)) := rfl

end Lanes

/-! ## The broadcasts and the projections -/

/-- A lane vector repeated down the 128 rows. -/
abbrev rows (v : Arr S512) : Arr S128x512 :=
  broadcastInDim S128x512 ![0, 1] bcast_S1x512_S128x512_0_1 (broadcastInDim S1x512 ![1] bcast_S512_S1x512_1 v)
/-- A lane vector repeated over a `[128, 256, 512]` array. -/
abbrev lanes (v : Arr S512) : Arr S128x256x512 :=
  broadcastInDim S128x256x512 ![0, 1, 2] bcast_S1x1x512_S128x256x512_0_1_2 (broadcastInDim S1x1x512 ![2] bcast_S512_S1x1x512_2 v)
/-- `x` repeated along the 512 lanes. -/
abbrev along (x : Arr S128x256) : Arr S128x256x512 :=
  broadcastInDim S128x256x512 ![0, 1, 2] bcast_S128x256x1_S128x256x512_0_1_2 (broadcastInDim S128x256x1 ![0, 1] bcast_S128x256_S128x256x1_0_1 x)

theorem rows_at (v : Arr S512) (p : Fin 128) (q : Fin 512) : rows v (ix2 p q) = v (ix1 q) := rows_apply v _ _ p q
theorem lanes_at (v : Arr S512) (p : Fin 128) (d : Fin 256) (q : Fin 512) : lanes v (ix3 p d q) = v (ix1 q) := lanes_apply v _ _ p d q
theorem along_at (x : Arr S128x256) (p : Fin 128) (d : Fin 256) (q : Fin 512) : along x (ix3 p d q) = x (ix2 p d) :=
  alongLanes_apply x _ _ p d q

theorem proj1_ref (p : Fin 128) (q : Fin 512) : val_main_v12 (F := Ideal) x0 x11 (ix2 p q) = proj x0 x11 p q :=
  dotGeneral_plain 128 256 512 none _ x0 x11 p q
theorem proj2_ref (p : Fin 128) (q : Fin 512) : val_main_v13 (F := Ideal) x0 x12 (ix2 p q) = proj x0 x12 p q :=
  dotGeneral_plain 128 256 512 none _ x0 x12 p q

/-! ## The results -/

theorem newH1_ref : val_main_v24 (F := Ideal) x0 x1 x2 x11 x13 x14 = newH1 x0 x11 x13 x14 x1 x2 := by
  refine ext2 fun p q => ?_
  show (rows (val_main_v9 (F := Ideal) x13 x14) (ix2 p q) * x1 (ix2 p q)
      - rows (val_main_v11 (F := Ideal) x13 x14) (ix2 p q) * x2 (ix2 p q))
      + rows (val_main_v7 (F := Ideal) x13) (ix2 p q) * val_main_v12 (F := Ideal) x0 x11 (ix2 p q) = _
  rw [rows_at, rows_at, rows_at, rotA_lane, rotB_lane, gain_lane, proj1_ref]
  rfl

theorem newH2_ref : val_main_v35 (F := Ideal) x0 x1 x2 x12 x13 x14 = newH2 x0 x12 x13 x14 x1 x2 := by
  refine ext2 fun p q => ?_
  show (rows (val_main_v11 (F := Ideal) x13 x14) (ix2 p q) * x1 (ix2 p q)
      + rows (val_main_v9 (F := Ideal) x13 x14) (ix2 p q) * x2 (ix2 p q))
      + rows (val_main_v7 (F := Ideal) x13) (ix2 p q) * val_main_v13 (F := Ideal) x0 x12 (ix2 p q) = _
  rw [rows_at, rows_at, rows_at, rotA_lane, rotB_lane, gain_lane, proj2_ref]
  rfl

theorem newN1_ref : val_main_v64 (F := Ideal) x0 x1 x2 x3 x4 x11 x13 x14 = newN1 x0 x11 x13 x14 x1 x2 x3 x4 := by
  refine ext2 fun p q => ?_
  show ((((rows (val_main_v9 (F := Ideal) x13 x14) (ix2 p q) * x3 (ix2 p q)
      - rows (val_main_v11 (F := Ideal) x13 x14) (ix2 p q) * x4 (ix2 p q))
      + rows (val_main_v37 (F := Ideal) x13 x14) (ix2 p q) * x1 (ix2 p q))
      - rows (val_main_v39 (F := Ideal) x13 x14) (ix2 p q) * x2 (ix2 p q))
      + rows (val_main_v42 (F := Ideal) x13) (ix2 p q) * val_main_v12 (F := Ideal) x0 x11 (ix2 p q)) = _
  rw [rows_at, rows_at, rows_at, rows_at, rows_at, rotA_lane, rotB_lane, dAν_lane, dBν_lane, dgν_lane, proj1_ref]
  rfl

theorem newN2_ref : val_main_v83 (F := Ideal) x0 x1 x2 x3 x4 x12 x13 x14 = newN2 x0 x12 x13 x14 x1 x2 x3 x4 := by
  refine ext2 fun p q => ?_
  show ((((rows (val_main_v11 (F := Ideal) x13 x14) (ix2 p q) * x3 (ix2 p q)
      + rows (val_main_v9 (F := Ideal) x13 x14) (ix2 p q) * x4 (ix2 p q))
      + rows (val_main_v39 (F := Ideal) x13 x14) (ix2 p q) * x1 (ix2 p q))
      + rows (val_main_v37 (F := Ideal) x13 x14) (ix2 p q) * x2 (ix2 p q))
      + rows (val_main_v42 (F := Ideal) x13) (ix2 p q) * val_main_v13 (F := Ideal) x0 x12 (ix2 p q)) = _
  rw [rows_at, rows_at, rows_at, rows_at, rows_at, rotA_lane, rotB_lane, dAν_lane, dBν_lane, dgν_lane, proj2_ref]
  rfl

theorem newT1_ref : val_main_v98 (F := Ideal) x1 x2 x5 x6 x13 x14 = newT1 x13 x14 x1 x2 x5 x6 := by
  refine ext2 fun p q => ?_
  show ((rows (val_main_v9 (F := Ideal) x13 x14) (ix2 p q) * x5 (ix2 p q)
      - rows (val_main_v11 (F := Ideal) x13 x14) (ix2 p q) * x6 (ix2 p q))
      + rows (val_main_v44 (F := Ideal) x13 x14) (ix2 p q) * x1 (ix2 p q))
      - rows (val_main_v45 (F := Ideal) x13 x14) (ix2 p q) * x2 (ix2 p q) = _
  rw [rows_at, rows_at, rows_at, rows_at, rotA_lane, rotB_lane, dAθ_lane, dBθ_lane]
  rfl

theorem newT2_ref : val_main_v113 (F := Ideal) x1 x2 x5 x6 x13 x14 = newT2 x13 x14 x1 x2 x5 x6 := by
  refine ext2 fun p q => ?_
  show ((rows (val_main_v11 (F := Ideal) x13 x14) (ix2 p q) * x5 (ix2 p q)
      + rows (val_main_v9 (F := Ideal) x13 x14) (ix2 p q) * x6 (ix2 p q))
      + rows (val_main_v45 (F := Ideal) x13 x14) (ix2 p q) * x1 (ix2 p q))
      + rows (val_main_v44 (F := Ideal) x13 x14) (ix2 p q) * x2 (ix2 p q) = _
  rw [rows_at, rows_at, rows_at, rows_at, rotA_lane, rotB_lane, dAθ_lane, dBθ_lane]
  rfl

theorem newW11_ref : val_main_v126 (F := Ideal) x0 x7 x8 x13 x14 = newW1x x0 x13 x14 x7 x8 := by
  refine ext3 fun p d q => ?_
  show (lanes (val_main_v9 (F := Ideal) x13 x14) (ix3 p d q) * x7 (ix3 p d q)
      - lanes (val_main_v11 (F := Ideal) x13 x14) (ix3 p d q) * x8 (ix3 p d q))
      + lanes (val_main_v7 (F := Ideal) x13) (ix3 p d q) * along x0 (ix3 p d q) = _
  rw [lanes_at, lanes_at, lanes_at, along_at, rotA_lane, rotB_lane, gain_lane]
  rfl

theorem newW12_ref : val_main_v133 (F := Ideal) x7 x8 x13 x14 = newW2 x13 x14 x7 x8 := by
  refine ext3 fun p d q => ?_
  show lanes (val_main_v11 (F := Ideal) x13 x14) (ix3 p d q) * x7 (ix3 p d q)
      + lanes (val_main_v9 (F := Ideal) x13 x14) (ix3 p d q) * x8 (ix3 p d q) = _
  rw [lanes_at, lanes_at, rotA_lane, rotB_lane]
  rfl

theorem newW21_ref : val_main_v140 (F := Ideal) x9 x10 x13 x14 = newW1 x13 x14 x9 x10 := by
  refine ext3 fun p d q => ?_
  show lanes (val_main_v9 (F := Ideal) x13 x14) (ix3 p d q) * x9 (ix3 p d q)
      - lanes (val_main_v11 (F := Ideal) x13 x14) (ix3 p d q) * x10 (ix3 p d q) = _
  rw [lanes_at, lanes_at, rotA_lane, rotB_lane]
  rfl

theorem newW22_ref : val_main_v148 (F := Ideal) x0 x9 x10 x13 x14 = newW2x x0 x13 x14 x9 x10 := by
  refine ext3 fun p d q => ?_
  show (lanes (val_main_v11 (F := Ideal) x13 x14) (ix3 p d q) * x9 (ix3 p d q)
      + lanes (val_main_v9 (F := Ideal) x13 x14) (ix3 p d q) * x10 (ix3 p d q))
      + lanes (val_main_v7 (F := Ideal) x13) (ix3 p d q) * along x0 (ix3 p d q) = _
  rw [lanes_at, lanes_at, lanes_at, along_at, rotA_lane, rotB_lane, gain_lane]
  rfl

end Cert.ReferenceIdeal.RefValue

end
-- ==== Proof.lean ====
/-
  The certificate: a rotational recurrent unit's step and its sensitivity traces, as two tiled kernels, against the
  plain array program.

  Both programs compute, per hidden lane, `r = exp (−exp ν)`, `θ = exp ϑ`, `g = √(1 − r²)`, `A = r·cos θ`, `B = r·sin θ`;
  rotate the hidden pair, the two trace pairs and the two weight-trace pairs by `(A, B)`; and add the gained input terms.
  The first kernel does the `[128, 512]` results 128 lanes at a time (its input projections are matrix products of blocks
  rounded to bfloat16, the identity on the extended reals) and hands the lane vectors `A`, `B`, `g` to the second kernel,
  which rotates the `[128, 256, 512]` traces two rows at a time; the host joins and rectifies the two new hidden states.
  Read on the extended reals, every result of either program is the same function of the arguments (Spec.lean), the same
  sums and products in the same order: no finiteness of the inputs is used.  The idealization rewrote nothing, so the
  kernel's idealized program is its own text read at the ideal instance.
-/
import proofs.«155310_j53712861003855_2_alg».proof.Defs
import proofs.«155310_j53712861003855_2_alg».proof.Proof.Gen.Kernel
import proofs.«155310_j53712861003855_2_alg».proof.Proof.Gen.Kernel.Frame
import proofs.«155310_j53712861003855_2_alg».proof.Proof.Gen.KernelIdeal
import proofs.«155310_j53712861003855_2_alg».proof.Proof.Gen.KernelIdeal.Frame
import proofs.«155310_j53712861003855_2_alg».proof.Proof.Gen.ReferenceIdeal
import proofs.«155310_j53712861003855_2_alg».proof.Proof.Gen.ReferenceIdeal.Run
import proofs.«155310_j53712861003855_2_alg».proof.Proof.Gen.ReferenceIdeal.Read
import proofs.«155310_j53712861003855_2_alg».proof.Proof.Gen.Pre_finite_inputs
import proofs.«155310_j53712861003855_2_alg».proof.Proof.KernelRun
import proofs.«155310_j53712861003855_2_alg».proof.Proof.RefSide
import Idealize.ShloMosaic.Adequacy
import Idealize.ShloMosaic.Init

set_option maxRecDepth 16384

noncomputable section

/-! ## The idealized kernel program's run, result by result -/

namespace Cert.KernelIdeal.RunValue

open Cert.KernelIdeal Cert.KernelIdeal.Gen Cert.Rtu Idealize.ShloMosaic Idealize.ShloMosaic.TcCoe Idealize.SL.Sem

/-- Every weakly fair execution of the idealized kernel program terminates, nothing faulting, with its eleven results
    at the functions of Spec.lean of the arguments as launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2)
        = joinRelu (newH1 (m ((c.tc : Thread nD τ).loc main_arg0)) (m ((c.tc : Thread nD τ).loc main_arg11)) (m ((c.tc : Thread nD τ).loc main_arg13)) (m ((c.tc : Thread nD τ).loc main_arg14)) (m ((c.tc : Thread nD τ).loc main_arg1)) (m ((c.tc : Thread nD τ).loc main_arg2)))
            (newH2 (m ((c.tc : Thread nD τ).loc main_arg0)) (m ((c.tc : Thread nD τ).loc main_arg12)) (m ((c.tc : Thread nD τ).loc main_arg13)) (m ((c.tc : Thread nD τ).loc main_arg14)) (m ((c.tc : Thread nD τ).loc main_arg1)) (m ((c.tc : Thread nD τ).loc main_arg2)))
      ∧ r.2.mem ((c.tc : Thread nD τ).loc main_v0_0)
        = newH1 (m ((c.tc : Thread nD τ).loc main_arg0)) (m ((c.tc : Thread nD τ).loc main_arg11)) (m ((c.tc : Thread nD τ).loc main_arg13)) (m ((c.tc : Thread nD τ).loc main_arg14)) (m ((c.tc : Thread nD τ).loc main_arg1)) (m ((c.tc : Thread nD τ).loc main_arg2))
      ∧ r.2.mem ((c.tc : Thread nD τ).loc main_v0_1)
        = newH2 (m ((c.tc : Thread nD τ).loc main_arg0)) (m ((c.tc : Thread nD τ).loc main_arg12)) (m ((c.tc : Thread nD τ).loc main_arg13)) (m ((c.tc : Thread nD τ).loc main_arg14)) (m ((c.tc : Thread nD τ).loc main_arg1)) (m ((c.tc : Thread nD τ).loc main_arg2))
      ∧ r.2.mem ((c.tc : Thread nD τ).loc main_v0_2)
        = newN1 (m ((c.tc : Thread nD τ).loc main_arg0)) (m ((c.tc : Thread nD τ).loc main_arg11)) (m ((c.tc : Thread nD τ).loc main_arg13)) (m ((c.tc : Thread nD τ).loc main_arg14)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_3)
        = newN2 (m ((c.tc : Thread nD τ).loc main_arg0)) (m ((c.tc : Thread nD τ).loc main_arg12)) (m ((c.tc : Thread nD τ).loc main_arg13)) (m ((c.tc : Thread nD τ).loc main_arg14)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_4)
        = newT1 (m ((c.tc : Thread nD τ).loc main_arg13)) (m ((c.tc : Thread nD τ).loc main_arg14)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v0_5)
        = newT2 (m ((c.tc : Thread nD τ).loc main_arg13)) (m ((c.tc : Thread nD τ).loc main_arg14)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v4_0)
        = newW1x (m ((c.tc : Thread nD τ).loc main_arg0)) (m ((c.tc : Thread nD τ).loc main_arg13)) (m ((c.tc : Thread nD τ).loc main_arg14)) (m ((c.tc : Thread nD τ).loc main_arg7)) (m ((c.tc : Thread nD τ).loc main_arg8))
      ∧ r.2.mem ((c.tc : Thread nD τ).loc main_v4_1)
        = newW2 (m ((c.tc : Thread nD τ).loc main_arg13)) (m ((c.tc : Thread nD τ).loc main_arg14)) (m ((c.tc : Thread nD τ).loc main_arg7)) (m ((c.tc : Thread nD τ).loc main_arg8))
      ∧ r.2.mem ((c.tc : Thread nD τ).loc main_v4_2)
        = newW1 (m ((c.tc : Thread nD τ).loc main_arg13)) (m ((c.tc : Thread nD τ).loc main_arg14)) (m ((c.tc : Thread nD τ).loc main_arg9)) (m ((c.tc : Thread nD τ).loc main_arg10))
      ∧ r.2.mem ((c.tc : Thread nD τ).loc main_v4_3)
        = newW2x (m ((c.tc : Thread nD τ).loc main_arg0)) (m ((c.tc : Thread nD τ).loc main_arg13)) (m ((c.tc : Thread nD τ).loc main_arg14)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v2 (by decide))).trans ((out_h m ρ c).trans (by rw [small_0, small_1])),
     (h c _ (mem_uc main_v0_0 (by decide))).trans ((out_0 m ρ c).trans (small_0 m ρ c)),
     (h c _ (mem_uc main_v0_1 (by decide))).trans ((out_1 m ρ c).trans (small_1 m ρ c)),
     (h c _ (mem_uc main_v0_2 (by decide))).trans ((out_2 m ρ c).trans (small_2 m ρ c)),
     (h c _ (mem_uc main_v0_3 (by decide))).trans ((out_3 m ρ c).trans (small_3 m ρ c)),
     (h c _ (mem_uc main_v0_4 (by decide))).trans ((out_4 m ρ c).trans (small_4 m ρ c)),
     (h c _ (mem_uc main_v0_5 (by decide))).trans ((out_5 m ρ c).trans (small_5 m ρ c)),
     (h c _ (mem_uc main_v4_0 (by decide))).trans (out_w11 m ρ c),
     (h c _ (mem_uc main_v4_1 (by decide))).trans (out_w12 m ρ c),
     (h c _ (mem_uc main_v4_2 (by decide))).trans (out_w21 m ρ c),
     (h c _ (mem_uc main_v4_3 (by decide))).trans (out_w22 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c)⟩)
    (run_all m ρ)

end Cert.KernelIdeal.RunValue

/-! ## The claims -/

namespace Cert.Proof

open Idealize.ShloMosaic Idealize.ShloMosaic.TcCoe Idealize.SL.Sem Cert.Rtu

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2.2.2.2.2.2.2.2)
    (Cert.ReferenceIdeal.Value.run (F := Ideal) m ρ)

/-- The idealization rewrote nothing: there is nothing to preserve. -/
theorem preserves : Cert.preserves_Kernel_KernelIdeal := trivial

/-- The host's rectified join of the reference is the kernel program's, applied to the reference's two new hidden states. -/
theorem join_ref (x0 : Cert.ReferenceIdeal.RefValue.Arr Cert.ReferenceIdeal.S128x256)
    (x1 x2 : Cert.ReferenceIdeal.RefValue.Arr Cert.ReferenceIdeal.S128x512)
    (x11 x12 : Cert.ReferenceIdeal.RefValue.Arr Cert.ReferenceIdeal.S256x512) (x13 x14 : Cert.ReferenceIdeal.RefValue.Arr Cert.ReferenceIdeal.S512) :
    Cert.ReferenceIdeal.Read.val_main_v150 (F := Ideal) x0 x1 x2 x11 x12 x13 x14
      = Cert.KernelIdeal.RunValue.joinRelu (newH1 x0 x11 x13 x14 x1 x2) (newH2 x0 x12 x13 x14 x1 x2) := by
  rw [← Cert.ReferenceIdeal.RefValue.newH1_ref, ← Cert.ReferenceIdeal.RefValue.newH2_ref]
  rfl

/-- From memories agreeing on the arguments both idealized programs end with every result at the same function of the
    arguments: the kernel program by its run read through the two regions, the reference by its run read stage by stage. -/
theorem algebraic : Cert.algebraic_KernelIdeal_ReferenceIdeal := by
  intro m ρ m' ρ' _ hagree
  refine ⟨_, _, _, _, _, _, _, _, _, _, _, Cert.KernelIdeal.RunValue.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14⟩ := hagree c
  obtain ⟨h0, h1, h2, h3, h4, h5, h6, h7, h8, h9, h10, hargs⟩ := h c
  refine ⟨?_, ?_, ?_, ?_, ?_, ?_, ?_, ?_, ?_, ?_, ?_, hargs⟩
  · rw [h0, Cert.ReferenceIdeal.Read.val_main_v150_eq, join_ref, a0, a1, a2, a11, a12, a13, a14]
  · rw [h1, Cert.ReferenceIdeal.Read.val_main_v24_eq, Cert.ReferenceIdeal.RefValue.newH1_ref, a0, a1, a2, a11, a13, a14]
  · rw [h2, Cert.ReferenceIdeal.Read.val_main_v35_eq, Cert.ReferenceIdeal.RefValue.newH2_ref, a0, a1, a2, a12, a13, a14]
  · rw [h3, Cert.ReferenceIdeal.Read.val_main_v64_eq, Cert.ReferenceIdeal.RefValue.newN1_ref, a0, a1, a2, a3, a4, a11, a13, a14]
  · rw [h4, Cert.ReferenceIdeal.Read.val_main_v83_eq, Cert.ReferenceIdeal.RefValue.newN2_ref, a0, a1, a2, a3, a4, a12, a13, a14]
  · rw [h5, Cert.ReferenceIdeal.Read.val_main_v98_eq, Cert.ReferenceIdeal.RefValue.newT1_ref, a1, a2, a5, a6, a13, a14]
  · rw [h6, Cert.ReferenceIdeal.Read.val_main_v113_eq, Cert.ReferenceIdeal.RefValue.newT2_ref, a1, a2, a5, a6, a13, a14]
  · rw [h7, Cert.ReferenceIdeal.Read.val_main_v126_eq, Cert.ReferenceIdeal.RefValue.newW11_ref, a0, a7, a8, a13, a14]
  · rw [h8, Cert.ReferenceIdeal.Read.val_main_v133_eq, Cert.ReferenceIdeal.RefValue.newW12_ref, a7, a8, a13, a14]
  · rw [h9, Cert.ReferenceIdeal.Read.val_main_v140_eq, Cert.ReferenceIdeal.RefValue.newW21_ref, a9, a10, a13, a14]
  · rw [h10, Cert.ReferenceIdeal.Read.val_main_v148_eq, Cert.ReferenceIdeal.RefValue.newW22_ref, a0, a9, a10, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
